-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x256 : Shape := ⟨2, ![500000, 256]⟩
abbrev S100000x256 : Shape := ⟨2, ![100000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S_ : Shape := ⟨0, ![]⟩

class Facts : Prop where
  bcast_S_S500000x256 : S_.BroadcastsInDim S500000x256 (![] : Fin 0 → Fin S500000x256.rank)
  reducesTo_S500000x256_S_d0_1 : S500000x256.ReducesTo [0, 1] S_
  h_S_ : 0 < S_.numel
  bcast_S_S100000x256 : S_.BroadcastsInDim S100000x256 (![] : Fin 0 → Fin S100000x256.rank)
  reducesTo_S100000x256_S_d0_1 : S100000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S512x256 : S_.BroadcastsInDim S512x256 (![] : Fin 0 → Fin S512x256.rank)
  reducesTo_S512x256_S_d0_1 : S512x256.ReducesTo [0, 1] S_

variable [Facts]

def fn_part1 {F : FTy → Type} [FloatOps F] (main_arg6 : FVec F S512x256 .f32) (main_arg7 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S512x256 .f32 := Host.absf main_arg6
  let main_cst_6 : FVec F S_ .f32 := constant S_ .f32 0x7F800000#32
  let main_v20 : FVec F S512x256 .f32 := broadcastInDim S512x256 ![] bcast_S_S512x256 main_cst_6
  let main_v21 : IVec S512x256 1 := cmpf .olt main_v19 main_v20
  let main_c_7 : IVec S_ 1 := constantI S_ 1 1#1
  let main_v22 : IVec S_ 1 := (fun x v => Host.reduce IntOp.andi x v reducesTo_S512x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S500000x256 .f32) (main_arg1 : FVec F S100000x256 .f32) (main_arg2 : IVec S400000 32) (main_arg3 : IVec S400000 32) (main_arg4 : FVec F S256x256 .f32) (main_arg5 : FVec F S256 .f32) (main_arg6 : FVec F S512x256 .f32) (main_arg7 : FVec F S256 .f32) : IVec S_ 1 :=
  let main_v0 : FVec F S500000x256 .f32 := Host.absf main_arg0
  let main_cst : FVec F S_ .f32 := constant S_ .f32 0x7F800000#32
  let main_v1 : FVec F S500000x256 .f32 := broadcastInDim S500000x256 ![] bcast_S_S500000x256 main_cst
  let main_v2 : IVec S500000x256 1 := cmpf .olt main_v0 main_v1
  let main_c : IVec S_ 1 := constantI S_ 1 1#1
  let main_v3 : IVec S_ 1 := (fun x v => Host.reduce IntOp.andi x v reducesTo_S500000x256_S_d0_1 h_S_) main_v2 main_c
  let main_v4 : FVec F S100000x256 .f32 := Host.absf main_arg1
  let main_cst_0 : FVec F S_ .f32 := constant S_ .f32 0x7F800000#32
  let main_v5 : FVec F S100000x256 .f32 := broadcastInDim S100000x256 ![] bcast_S_S100000x256 main_cst_0
  let main_v6 : IVec S100000x256 1 := cmpf .olt main_v4 main_v5
  let main_c_1 : IVec S_ 1 := constantI S_ 1 1#1
  let main_v7 : IVec S_ 1 := (fun x v => Host.reduce IntOp.andi x v reducesTo_S100000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_v13 main_v16
-- ==== Kernel.lean ====
abbrev S500000x256 : Shape := ⟨2, ![500000, 256]⟩
abbrev S100000x256 : Shape := ⟨2, ![100000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S1x256 : Shape := ⟨2, ![1, 256]⟩
abbrev S_ : Shape := ⟨0, ![]⟩
abbrev S400000x1 : Shape := ⟨2, ![400000, 1]⟩
abbrev S400000x256 : Shape := ⟨2, ![400000, 256]⟩
abbrev S2000x256 : Shape := ⟨2, ![2000, 256]⟩

abbrev nBuf : Space → Nat
  | .hbm => 44
  | .vmem => 15
  | .smem => 0
  | _ => 0

abbrev bufTy : (tb : Table) → Fin (tcTables nBuf tb) → BufTy
  | .hbm, ⟨0, _⟩ => ⟨S500000x256, .f32⟩
  | .hbm, ⟨1, _⟩ => ⟨S100000x256, .f32⟩
  | .hbm, ⟨2, _⟩ => ⟨S400000, .i32⟩
  | .hbm, ⟨3, _⟩ => ⟨S400000, .i32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S256x256, .bf16⟩
  | .hbm, ⟨9, _⟩ => ⟨S1x256, .f32⟩
  | .hbm, ⟨10, _⟩ => ⟨S100000x256, .f32⟩
  | .hbm, ⟨11, _⟩ => ⟨S_, .i32⟩
  | .hbm, ⟨12, _⟩ => ⟨S400000, .i32⟩
  | .hbm, ⟨13, _⟩ => ⟨S400000, .i1⟩
  | .hbm, ⟨14, _⟩ => ⟨S_, .i32⟩
  | .hbm, ⟨15, _⟩ => ⟨S400000, .i32⟩
  | .hbm, ⟨16, _⟩ => ⟨S400000, .i32⟩
  | .hbm, ⟨17, _⟩ => ⟨S400000, .i32⟩
  | .hbm, ⟨18, _⟩ => ⟨S400000x1, .i32⟩
  | .hbm, ⟨19, _⟩ => ⟨S400000x256, .f32⟩
  | .hbm, ⟨20, _⟩ => ⟨S_, .i32⟩
  | .hbm, ⟨21, _⟩ => ⟨S400000, .i32⟩
  | .hbm, ⟨22, _⟩ => ⟨S400000, .i1⟩
  | .hbm, ⟨23, _⟩ => ⟨S_, .i32⟩
  | .hbm, ⟨24, _⟩ => ⟨S400000, .i32⟩
  | .hbm, ⟨25, _⟩ => ⟨S400000, .i32⟩
  | .hbm, ⟨26, _⟩ => ⟨S400000, .i32⟩
  | .hbm, ⟨27, _⟩ => ⟨S400000x1, .i32⟩
  | .hbm, ⟨28, _⟩ => ⟨S400000x256, .f32⟩
  | .hbm, ⟨29, _⟩ => ⟨S256x256, .f32⟩
  | .hbm, ⟨30, _⟩ => ⟨S256x256, .bf16⟩
  | .hbm, ⟨31, _⟩ => ⟨S256x256, .f32⟩
  | .hbm, ⟨32, _⟩ => ⟨S256x256, .bf16⟩
  | .hbm, ⟨33, _⟩ => ⟨S1x256, .f32⟩
  | .hbm, ⟨34, _⟩ => ⟨S400000x256, .f32⟩
  | .hbm, ⟨35, _⟩ => ⟨S_, .i32⟩
  | .hbm, ⟨36, _⟩ => ⟨S400000, .i32⟩
  | .hbm, ⟨37, _⟩ => ⟨S400000, .i1⟩
  | .hbm, ⟨38, _⟩ => ⟨S_, .i32⟩
  | .hbm, ⟨39, _⟩ => ⟨S400000, .i32⟩
  | .hbm, ⟨40, _⟩ => ⟨S400000, .i32⟩
  | .hbm, ⟨41, _⟩ => ⟨S400000, .i32⟩
  | .hbm, ⟨42, _⟩ => ⟨S400000x1, .i32⟩
  | .hbm, ⟨43, _⟩ => ⟨S500000x256, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S1x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S256x256, .bf16⟩
  | .local _ .vmem, ⟨11, _⟩ => ⟨S256x256, .bf16⟩
  | .local _ .vmem, ⟨12, _⟩ => ⟨S1x256, .f32⟩
  | .local _ .vmem, ⟨13, _⟩ => ⟨S2000x256, .f32⟩
  | .local _ .vmem, ⟨14, _⟩ => ⟨S2000x256, .f32⟩
  | _, _ => ⟨S500000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_c : Ref sig .tc := ⟨.hbm, 11, rfl⟩
abbrev main_call0_v3 : Ref sig .tc := ⟨.hbm, 12, rfl⟩
abbrev main_call0_v4 : Ref sig .tc := ⟨.hbm, 13, rfl⟩
abbrev main_call0_c_0 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_c_1 : Ref sig .tc := ⟨.hbm, 20, rfl⟩
abbrev main_call0_v10 : Ref sig .tc := ⟨.hbm, 21, rfl⟩
abbrev main_call0_v11 : Ref sig .tc := ⟨.hbm, 22, rfl⟩
abbrev main_call0_c_2 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_v15 : Ref sig .tc := ⟨.hbm, 27, rfl⟩
abbrev main_call0_v16 : Ref sig .tc := ⟨.hbm, 28, rfl⟩
abbrev main_call0_v17 : Ref sig .tc := ⟨.hbm, 29, rfl⟩
abbrev main_call0_v18 : Ref sig .tc := ⟨.hbm, 30, rfl⟩
abbrev main_call0_v19 : Ref sig .tc := ⟨.hbm, 31, rfl⟩
abbrev main_call0_v20 : Ref sig .tc := ⟨.hbm, 32, rfl⟩
abbrev main_call0_v21 : Ref sig .tc := ⟨.hbm, 33, rfl⟩
abbrev main_call0_v22 : Ref sig .tc := ⟨.hbm, 34, rfl⟩
abbrev main_call0_c_3 : Ref sig .tc := ⟨.hbm, 35, rfl⟩
abbrev main_call0_v23 : Ref sig .tc := ⟨.hbm, 36, rfl⟩
abbrev main_call0_v24 : Ref sig .tc := ⟨.hbm, 37, rfl⟩
abbrev main_call0_c_4 : Ref sig .tc := ⟨.hbm, 38, rfl⟩
abbrev main_call0_v25 : Ref sig .tc := ⟨.hbm, 39, rfl⟩
abbrev main_call0_v26 : Ref sig .tc := ⟨.hbm, 40, rfl⟩
abbrev main_call0_v27 : Ref sig .tc := ⟨.hbm, 41, rfl⟩
abbrev main_call0_v28 : Ref sig .tc := ⟨.hbm, 42, rfl⟩
abbrev main_v0 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg5_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  shapeCasts_S256_S1x256 : S256.ShapeCasts S1x256
  bcast_S_S400000 : S_.BroadcastsInDim S400000 (![] : Fin 0 → Fin S400000.rank)
  bcast_S400000_S400000x1_0 : S400000.BroadcastsInDim S400000x1 (![0] : Fin 1 → Fin S400000x1.rank)
  slices_S512x256_S256x256_0_0 : S512x256.Slices ![0, 0] S256x256
  slices_S512x256_S256x256_256_0 : S512x256.Slices ![256, 0] S256x256
  inb_S2000x256_S2000x256_0_0 : ∀ a, (![0, 0] : Fin 2 → Nat) a + S2000x256.size a ≤ S2000x256.size a
  h_S2000x256 : 0 < S2000x256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  shapeCasts_S2000x256_S2000x256 : S2000x256.ShapeCasts S2000x256
  gather_S500000x256_S400000x1_S400000x256_1_0_n_n_0_1_1256_wf : GatherDims.WF S500000x256 S400000x1 S400000x256 [1] [0] [] [0] [] 1 ![1, 256]
  gather_S100000x256_S400000x1_S400000x256_1_0_n_n_0_1_1256_wf : GatherDims.WF S100000x256 S400000x1 S400000x256 [1] [0] [] [0] [] 1 ![1, 256]
  scatter_S500000x256_S400000x1_S400000x256_1_0_0_1_wf : ScatterDims.WF S500000x256 S400000x1 S400000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S100000x256.size a
  hwx0_0 : ∀ i : grid0.Coords, EltTy.bits .f32 = 32 ∨ (Rect.block (s := S100000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S100000x256.size a
  hwx0_3 : ∀ i : grid0.Coords, EltTy.bits .f32 = 32 ∨ (Rect.block (s := S100000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S400000x256.size a
  hwx1_0 : ∀ i : grid1.Coords, EltTy.bits .f32 = 32 ∨ (Rect.block (s := S400000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S400000x256.size a
  hwx1_1 : ∀ i : grid1.Coords, EltTy.bits .f32 = 32 ∨ (Rect.block (s := S400000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .bf16 = 32 ∨ (Rect.block (s := S256x256) S256x256.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .bf16 = 32 ∨ (Rect.block (s := S256x256) S256x256.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S400000x256.size a
  hwx1_5 : ∀ i : grid1.Coords, EltTy.bits .f32 = 32 ∨ (Rect.block (s := S400000x256) S2000x256.size (cc1_transform_5 i) (hinb1_5 i)).WholeWords (EltTy.packing .f32)

variable [Facts₀]

def gather_S500000x256_S400000x1_S400000x256_1_0_n_n_0_1_1256 : GatherDims S500000x256 S400000x1 S400000x256 where
  offsetDims := [1]
  collapsedSliceDims := [0]
  operandBatchingDims := []
  startIndicesBatchingDims := []
  startIndexMap := [0]
  indexVectorDim := 1
  sliceSizes := ![1, 256]
  wf := gather_S500000x256_S400000x1_S400000x256_1_0_n_n_0_1_1256_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def scatter_S500000x256_S400000x1_S400000x256_1_0_0_1 : ScatterDims S500000x256 S400000x1 S400000x256 where
  updateWindowDims := [1]
  insertedWindowDims := [0]
  scatterDimsToOperandDims := [0]
  indexVectorDim := 1
  wf := scatter_S500000x256_S400000x1_S400000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v1) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v2) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_call0_v9) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v16) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_call0_v18) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_call0_v20) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_call0_v21) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_call0_v22) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S500000x256 : Shape := ⟨2, ![500000, 256]⟩
abbrev S100000x256 : Shape := ⟨2, ![100000, 256]⟩
abbrev S400000 : Shape := ⟨1, ![400000]⟩
abbrev S256x256 : Shape := ⟨2, ![256, 256]⟩
abbrev S256 : Shape := ⟨1, ![256]⟩
abbrev S512x256 : Shape := ⟨2, ![512, 256]⟩
abbrev S_ : Shape := ⟨0, ![]⟩
abbrev S400000x1 : Shape := ⟨2, ![400000, 1]⟩
abbrev S400000x256 : Shape := ⟨2, ![400000, 256]⟩
abbrev S1x256 : Shape := ⟨2, ![1, 256]⟩

abbrev nBuf : Space → Nat
  | .hbm => 62
  | .vmem => 0
  | .smem => 0
  | _ => 0

abbrev bufTy : (tb : Table) → Fin (tcTables nBuf tb) → BufTy
  | .hbm, ⟨0, _⟩ => ⟨S500000x256, .f32⟩
  | .hbm, ⟨1, _⟩ => ⟨S100000x256, .f32⟩
  | .hbm, ⟨2, _⟩ => ⟨S400000, .i32⟩
  | .hbm, ⟨3, _⟩ => ⟨S400000, .i32⟩
  | .hbm, ⟨4, _⟩ => ⟨S256x256, .f32⟩
  | .hbm, ⟨5, _⟩ => ⟨S256, .f32⟩
  | .hbm, ⟨6, _⟩ => ⟨S512x256, .f32⟩
  | .hbm, ⟨7, _⟩ => ⟨S256, .f32⟩
  | .hbm, ⟨8, _⟩ => ⟨S_, .i32⟩
  | .hbm, ⟨9, _⟩ => ⟨S400000, .i32⟩
  | .hbm, ⟨10, _⟩ => ⟨S400000, .i1⟩
  | .hbm, ⟨11, _⟩ => ⟨S_, .i32⟩
  | .hbm, ⟨12, _⟩ => ⟨S400000, .i32⟩
  | .hbm, ⟨13, _⟩ => ⟨S400000, .i32⟩
  | .hbm, ⟨14, _⟩ => ⟨S400000, .i32⟩
  | .hbm, ⟨15, _⟩ => ⟨S400000x1, .i32⟩
  | .hbm, ⟨16, _⟩ => ⟨S400000x256, .f32⟩
  | .hbm, ⟨17, _⟩ => ⟨S_, .i32⟩
  | .hbm, ⟨18, _⟩ => ⟨S400000, .i32⟩
  | .hbm, ⟨19, _⟩ => ⟨S400000, .i1⟩
  | .hbm, ⟨20, _⟩ => ⟨S_, .i32⟩
  | .hbm, ⟨21, _⟩ => ⟨S400000, .i32⟩
  | .hbm, ⟨22, _⟩ => ⟨S400000, .i32⟩
  | .hbm, ⟨23, _⟩ => ⟨S400000, .i32⟩
  | .hbm, ⟨24, _⟩ => ⟨S400000x1, .i32⟩
  | .hbm, ⟨25, _⟩ => ⟨S400000x256, .f32⟩
  | .hbm, ⟨26, _⟩ => ⟨S400000x256, .f32⟩
  | .hbm, ⟨27, _⟩ => ⟨S1x256, .f32⟩
  | .hbm, ⟨28, _⟩ => ⟨S400000x256, .f32⟩
  | .hbm, ⟨29, _⟩ => ⟨S400000x256, .f32⟩
  | .hbm, ⟨30, _⟩ => ⟨S400000x256, .f32⟩
  | .hbm, ⟨31, _⟩ => ⟨S256x256, .f32⟩
  | .hbm, ⟨32, _⟩ => ⟨S400000x256, .f32⟩
  | .hbm, ⟨33, _⟩ => ⟨S256x256, .f32⟩
  | .hbm, ⟨34, _⟩ => ⟨S400000x256, .f32⟩
  | .hbm, ⟨35, _⟩ => ⟨S400000x256, .f32⟩
  | .hbm, ⟨36, _⟩ => ⟨S1x256, .f32⟩
  | .hbm, ⟨37, _⟩ => ⟨S400000x256, .f32⟩
  | .hbm, ⟨38, _⟩ => ⟨S400000x256, .f32⟩
  | .hbm, ⟨39, _⟩ => ⟨S400000x256, .f32⟩
  | .hbm, ⟨40, _⟩ => ⟨S400000x256, .f32⟩
  | .hbm, ⟨41, _⟩ => ⟨S_, .f32⟩
  | .hbm, ⟨42, _⟩ => ⟨S400000x256, .f32⟩
  | .hbm, ⟨43, _⟩ => ⟨S400000x256, .f32⟩
  | .hbm, ⟨44, _⟩ => ⟨S_, .f32⟩
  | .hbm, ⟨45, _⟩ => ⟨S400000x256, .f32⟩
  | .hbm, ⟨46, _⟩ => ⟨S400000x256, .f32⟩
  | .hbm, ⟨47, _⟩ => ⟨S400000x256, .f32⟩
  | .hbm, ⟨48, _⟩ => ⟨S_, .f32⟩
  | .hbm, ⟨49, _⟩ => ⟨S400000x256, .f32⟩
  | .hbm, ⟨50, _⟩ => ⟨S400000x256, .f32⟩
  | .hbm, ⟨51, _⟩ => ⟨S400000x256, .f32⟩
  | .hbm, ⟨52, _⟩ => ⟨S400000x256, .f32⟩
  | .hbm, ⟨53, _⟩ => ⟨S_, .i32⟩
  | .hbm, ⟨54, _⟩ => ⟨S400000, .i32⟩
  | .hbm, ⟨55, _⟩ => ⟨S400000, .i1⟩
  | .hbm, ⟨56, _⟩ => ⟨S_, .i32⟩
  | .hbm, ⟨57, _⟩ => ⟨S400000, .i32⟩
  | .hbm, ⟨58, _⟩ => ⟨S400000, .i32⟩
  | .hbm, ⟨59, _⟩ => ⟨S400000, .i32⟩
  | .hbm, ⟨60, _⟩ => ⟨S400000x1, .i32⟩
  | .hbm, ⟨61, _⟩ => ⟨S500000x256, .f32⟩
  | _, _ => ⟨S500000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_1 : Ref sig .tc := ⟨.hbm, 17, rfl⟩
abbrev main_v7 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_4 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c_5 : Ref sig .tc := ⟨.hbm, 53, rfl⟩
abbrev main_v38 : Ref sig .tc := ⟨.hbm, 54, rfl⟩
abbrev main_v39 : Ref sig .tc := ⟨.hbm, 55, rfl⟩
abbrev main_c_6 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩

abbrev nD : Nat := 1
abbrev τ : Topo := Topo.v7x

variable {F : FTy → Type} [FloatOps F]

class Facts₀ : Prop where
  bcast_S_S400000 : S_.BroadcastsInDim S400000 (![] : Fin 0 → Fin S400000.rank)
  bcast_S400000_S400000x1_0 : S400000.BroadcastsInDim S400000x1 (![0] : Fin 1 → Fin S400000x1.rank)
  bcast_S256_S1x256_1 : S256.BroadcastsInDim S1x256 (![1] : Fin 1 → Fin S1x256.rank)
  bcast_S1x256_S400000x256_0_1 : S1x256.BroadcastsInDim S400000x256 (![0, 1] : Fin 2 → Fin S400000x256.rank)
  slices_S512x256_S256x256_0_0 : S512x256.Slices ![0, 0] S256x256
  slices_S512x256_S256x256_256_0 : S512x256.Slices ![256, 0] S256x256
  bcast_S_S400000x256 : S_.BroadcastsInDim S400000x256 (![] : Fin 0 → Fin S400000x256.rank)
  gather_S500000x256_S400000x1_S400000x256_1_0_n_n_0_1_1256_wf : GatherDims.WF S500000x256 S400000x1 S400000x256 [1] [0] [] [0] [] 1 ![1, 256]
  gather_S100000x256_S400000x1_S400000x256_1_0_n_n_0_1_1256_wf : GatherDims.WF S100000x256 S400000x1 S400000x256 [1] [0] [] [0] [] 1 ![1, 256]
  dot_S400000x256_S256x256_S400000x256_1_0_0_1_n_n_wf : DotDims.WF S400000x256 S256x256 S400000x256 [1] [0] [0] [1] [] []
  scatter_S500000x256_S400000x1_S400000x256_1_0_0_1_wf : ScatterDims.WF S500000x256 S400000x1 S400000x256 [1] [0] [0] 1

variable [Facts₀]

def gather_S500000x256_S400000x1_S400000x256_1_0_n_n_0_1_1256 : GatherDims S500000x256 S400000x1 S400000x256 where
  offsetDims := [1]
  collapsedSliceDims := [0]
  operandBatchingDims := []
  startIndicesBatchingDims := []
  startIndexMap := [0]
  indexVectorDim := 1
  sliceSizes := ![1, 256]
  wf := gather_S500000x256_S400000x1_S400000x256_1_0_n_n_0_1_1256_wf
def gather_S100000x256_S400000x1_S400000x256_1_0_n_n_0_1_1256 : GatherDims S100000x256 S400000x1 S400000x256 where
  offsetDims := [1]
  collapsedSliceDims := [0]
  operandBatchingDims := []
  startIndicesBatchingDims := []
  startIndexMap := [0]
  indexVectorDim := 1
  sliceSizes := ![1, 256]
  wf := gather_S100000x256_S400000x1_S400000x256_1_0_n_n_0_1_1256_wf
def dot_S400000x256_S256x256_S400000x256_1_0_0_1_n_n : DotDims S400000x256 S256x256 S400000x256 where
  lhsContracting := [1]
  rhsContracting := [0]
  lhsNonContracting := [0]
  rhsNonContracting := [1]
  lhsBatch := []
  rhsBatch := []
  wf := dot_S400000x256_S256x256_S400000x256_1_0_0_1_n_n_wf
def scatter_S500000x256_S400000x1_S400000x256_1_0_0_1 : ScatterDims S500000x256 S400000x1 S400000x256 where
  updateWindowDims := [1]
  insertedWindowDims := [0]
  scatterDimsToOperandDims := [0]
  indexVectorDim := 1
  wf := scatter_S500000x256_S400000x1_S400000x256_1_0_0_1_wf

class Facts : Prop extends Facts₀ where

variable [Facts]
-- ==== Proof.KernelRun.lean ====
/-
  The idealized kernel's run with its result kept.

  @main is five segments: a host stretch (the update weights cast, the update bias reshaped), the first
  region (the table of projected updates over the 100000 context rows), a host stretch (the two row
  gathers, the gate weights sliced and cast, the gate bias reshaped), the second region (the gated blend
  over the 400000 mapped rows) and a last host stretch (the scatter of the blended rows back into the
  node encodings). Every weakly fair execution terminates, and at the end every buffer that is not
  scoped to a region holds the contents of the last boundary: the fold of the three host stretches and
  of the two regions' write-backs over the launch memory. Read at the result buffer this is the
  kernel's value; read at an argument it is the launch contents.
-/
import proofs.«133757_j2705829396959_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault; the result buffer ends at the last
    boundary's contents and every argument array as launched. -/
theorem run : θ_run defs (onTc (τ := τ) (main (F := F))) ⟨m, fun _ => 0, ρ⟩ (fun r => ∀ c : Dev nD,
      r.2.mem ((c.tc : Thread nD τ).loc main_v0) = W5 m ρ c (Proc.devRef .tc main_v0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipelines' own; no ghost resource rides beside it
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      -- each segment's post is the next one's pre by name; the last one's splits into the buffers and what is owed
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      -- the launch deals every core its unscoped buffers at the launch memory, its register and nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      -- the buffers held at the last boundary's contents are what a final state's memory holds there
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v0 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c)⟩)

end Cert.KernelIdeal.RunValue

end
-- ==== Proof.Spec.lean ====
/-
  The mathematics both programs compute, index by index, on the extended reals.

  A mapped row `r` pairs a node row `p = prev[key r]` with a context row `x = ctx[val r]`. The projected
  update of a context row is `u = tanh (x · W_u + b_u)`, entry by entry
  `u q = tanh (∑ k, x k · W_u[k, q] + b_u q)`; the gate is
  `z q = logistic (∑ k, p k · W_1[k, q] + ∑ k, u k · W_2[k, q] + b_g q)`; and the new node row is the
  blend `z q · p q + (1 − z q) · u q`. The projected update depends on the context row alone, so a table
  of it over all context rows, read at row `val r`, is the projected update of the gathered row.
-/
import Idealize.ShloMosaic.PureOps.Ideal
import Idealize.ShloMosaic.Lib.ValueIdx

noncomputable section

namespace Cert.GatedUpdate

open Idealize.ShloMosaic Idealize.ShloMosaic.ValueIdx

/-- An array of `n` rows of 256 extended reals. -/
abbrev Rows (n : Nat) : Type := (⟨2, ![n, 256]⟩ : Shape).Idx → EReal

/-- Row `r` of such an array. -/
def row {n : Nat} (a : Rows n) (r : Fin n) : Fin 256 → EReal := fun k => a (ix2 r k)

/-- Entry `q` of a row times a 256×256 matrix. -/
def rowDot (x : Fin 256 → EReal) (w : Rows 256) (q : Fin 256) : EReal := ∑ k : Fin 256, x k * w (ix2 k q)

/-- Entry `q` of the projected update of a context row. -/
def updRow (x : Fin 256 → EReal) (wu : Rows 256) (bu : Fin 256 → EReal) (q : Fin 256) : EReal :=
  Ideal.tanh (rowDot x wu q + bu q)

/-- Entry `q` of the gate of a node row `p` and an update row `u`. -/
def gateRow (p u : Fin 256 → EReal) (w1 w2 : Rows 256) (bg : Fin 256 → EReal) (q : Fin 256) : EReal :=
  Ideal.logistic (rowDot p w1 q + rowDot u w2 q + bg q)

/-- Entry `q` of the blended row: `z · p + (1 − z) · u`, the one the literal both programs print. -/
def blendRow (p u : Fin 256 → EReal) (w1 w2 : Rows 256) (bg : Fin 256 → EReal) (q : Fin 256) : EReal :=
  gateRow p u w1 w2 bg q * p q + (Ideal.ofBits .f32 0x3F800000#32 - gateRow p u w1 w2 bg q) * u q

/-- The projected update of every row of an array. -/
def updTable {n : Nat} (x : Rows n) (wu : Rows 256) (bu : Fin 256 → EReal) : Rows n :=
  fun i => updRow (row x (i 0)) wu bu (i 1)

/-- The blend of every row of two arrays. -/
def blend {n : Nat} (p u : Rows n) (w1 w2 : Rows 256) (bg : Fin 256 → EReal) : Rows n :=
  fun i => blendRow (row p (i 0)) (row u (i 0)) w1 w2 bg (i 1)

theorem updTable_apply {n : Nat} (x : Rows n) (wu : Rows 256) (bu : Fin 256 → EReal) (r : Fin n) (q : Fin 256) :
    updTable x wu bu (ix2 r q) = updRow (row x r) wu bu q := rfl

theorem blend_apply {n : Nat} (p u : Rows n) (w1 w2 : Rows 256) (bg : Fin 256 → EReal) (r : Fin n) (q : Fin 256) :
    blend p u w1 w2 bg (ix2 r q) = blendRow (row p r) (row u r) w1 w2 bg q := rfl

/-- A table of projected updates read at rows chosen by `σ` is the projected update of the rows so chosen:
    the update of a row depends on that row alone. -/
theorem updTable_reindex {n n' : Nat} (x : Rows n) (wu : Rows 256) (bu : Fin 256 → EReal) (σ : Fin n' → Fin n) :
    (fun i : (⟨2, ![n', 256]⟩ : Shape).Idx => updTable x wu bu (ix2 (σ (i 0)) (i 1)))
      = updTable (fun i : (⟨2, ![n', 256]⟩ : Shape).Idx => x (ix2 (σ (i 0)) (i 1))) wu bu := rfl

end Cert.GatedUpdate

end
-- ==== Proof.Body.lean ====
/-
  The two kernel bodies at an entry, on the extended reals.

  A block is 2000 rows. The first body stores, at row `p` and column `q` of its block, the projected update
  of the block's row `p`; the second stores the blend of the node block's row `p` with the update block's
  row `p`. The matrix products accumulate into a zero block, so each is the plain sum over the contracted
  axis; the changes of float format are the identity here.
-/
import proofs.«133757_j2705829396959_2_alg».proof.Proof.Gen.KernelIdeal.Skeleton
import proofs.«133757_j2705829396959_2_alg».proof.Proof.Spec
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx Cert.GatedUpdate

/-- The block product's dimension numbers: rows by the contracted axis, times the contracted axis by columns. -/
local notation "D" => dot_S2000x256_S256x256_S2000x256_1_0_0_1_n_n

theorem lhs_row (j : S2000x256.Idx) (k : (D).contr.Idx) : ((D).lhsIdx j k 0).val = (j 0).val := by
  unfold DotDims.lhsIdx
  rw [dif_neg (show ¬(0 : Fin S2000x256.rank) ∈ (D).lhsBatch by decide), dif_pos (show (0 : Fin S2000x256.rank) ∈ (D).lhsNonContracting by decide)]
  rfl

theorem rhs_col (j : S2000x256.Idx) (k : (D).contr.Idx) : ((D).rhsIdx j k 1).val = (j 1).val := by
  unfold DotDims.rhsIdx
  rw [dif_neg (show ¬(1 : Fin S256x256.rank) ∈ (D).rhsBatch by decide), dif_pos (show (1 : Fin S256x256.rank) ∈ (D).rhsNonContracting by decide)]
  rfl

/-- A block times a 256×256 matrix into the zero block, at row `p` and column `q`: the row's product. -/
theorem matmul_block_apply {φ₁ φ₂ : FTy} (x : FVec Ideal S2000x256 φ₁) (w : FVec Ideal S256x256 φ₂) (p : Fin 2000) (q : Fin 256) :
    matmul (D) none x w (constant S2000x256 .f32 0x00000000#32) (ix2 p q) = rowDot (fun k => x (ix2 p k)) w q := by
  simp only [matmul]
  rw [Ideal.matmul_constant_zero_apply]
  unfold rowDot
  rw [← Equiv.sum_comp (contrEquiv1 (D) 256 rfl rfl).symm]
  refine Finset.sum_congr rfl fun k _ => ?_
  have hk := contrEquiv1_symm_val (D) 256 rfl rfl k
  have el : (D).lhsIdx (ix2 p q) ((contrEquiv1 (D) 256 rfl rfl).symm k) = ix2 p k := funext fun a => Fin.ext (by
    match a with
    | ⟨0, _⟩ => exact lhs_row _ _
    | ⟨1, _⟩ => exact ((D).lhsIdx_val_of_single rfl _ _).trans hk)
  have er : (D).rhsIdx (ix2 p q) ((contrEquiv1 (D) 256 rfl rfl).symm k) = ix2 k q := funext fun a => Fin.ext (by
    match a with
    | ⟨0, _⟩ => exact ((D).rhsIdx_val_of_single rfl _ _).trans hk
    | ⟨1, _⟩ => exact rhs_col _ _)
  rw [el, er]

/-- The bias row broadcast down the block, at row `p` and column `q`: the bias at column `q`. -/
theorem bias_apply (b : FVec Ideal S1x256 .f32) (p : Fin 2000) (q : Fin 256) :
    broadcastTo S2000x256 (shapeCast S1x256 b shapeCasts_S1x256_S1x256) broadcasts_S1x256_S2000x256 (ix2 p q)
      = b (ix2 (0 : Fin 1) q) := by
  rw [shapeCast_self]
  refine broadcastTo_apply b broadcasts_S1x256_S2000x256 (ix2 p q) (ix2 (0 : Fin 1) q) fun a => ?_
  match a with
  | ⟨0, _⟩ => rfl
  | ⟨1, _⟩ => rfl

/-- A block's product with a matrix that the body first casts to its own shape. -/
theorem matmul_cast_apply {φ₁ : FTy} (x : FVec Ideal S2000x256 φ₁) (w : FVec Ideal S256x256 .bf16) (p : Fin 2000) (q : Fin 256) :
    matmul (F := Ideal) (φ₂ := .bf16) (D) none x (shapeCast S256x256 w shapeCasts_S256x256_S256x256) (constant (F := Ideal) S2000x256 .f32 0x00000000#32) (ix2 p q)
      = rowDot (fun k => x (ix2 p k)) w q := by
  rw [shapeCast_self]; exact matmul_block_apply x w p q

/-- THE FIRST BODY at row `p`, column `q` of its block: the projected update of the context block's row `p`. -/
theorem upd_payload_apply (x0 : Vec Ideal S2000x256 .f32) (x1 : Vec Ideal S256x256 .bf16) (x2 : Vec Ideal S1x256 .f32)
    (p : Fin 2000) (q : Fin 256) :
    k0_pay1 (F := Ideal) x0 x1 x2 (ix2 p q) = updRow (fun k => x0 (ix2 p k)) x1 (fun q => x2 (ix2 (0 : Fin 1) q)) q := by
  have h1 := matmul_cast_apply (truncf (F := Ideal) .bf16 x0 bitsLt_bf16_f32) x1 p q
  have h2 := bias_apply x2 p q
  exact congrArg Ideal.tanh (congrArg₂ (fun a b : EReal => a + b) h1 h2)

/-- THE SECOND BODY at row `p`, column `q` of its block: the blend of the node block's row `p` with the update
    block's row `p`. -/
theorem blend_payload_apply (x0 x1 : Vec Ideal S2000x256 .f32) (x2 x3 : Vec Ideal S256x256 .bf16) (x4 : Vec Ideal S1x256 .f32)
    (p : Fin 2000) (q : Fin 256) :
    k1_pay1 (F := Ideal) x0 x1 x2 x3 x4 (ix2 p q)
      = blendRow (fun k => x0 (ix2 p k)) (fun k => x1 (ix2 p k)) x2 x3 (fun q => x4 (ix2 (0 : Fin 1) q)) q := by
  have e0 : shapeCast S2000x256 x0 shapeCasts_S2000x256_S2000x256 = x0 := shapeCast_self _ _
  have e1 : shapeCast S2000x256 x1 shapeCasts_S2000x256_S2000x256 = x1 := shapeCast_self _ _
  have h0 := matmul_cast_apply (truncf (F := Ideal) .bf16 (shapeCast S2000x256 x0 shapeCasts_S2000x256_S2000x256) bitsLt_bf16_f32) x2 p q
  have h1 := matmul_cast_apply (truncf (F := Ideal) .bf16 (shapeCast S2000x256 x1 shapeCasts_S2000x256_S2000x256) bitsLt_bf16_f32) x3 p q
  have hb := bias_apply x4 p q
  -- the gate's argument at the entry
  have hz := congrArg Ideal.logistic (congrArg₂ (fun a b : EReal => a + b) (congrArg₂ (fun a b : EReal => a + b) h0 h1) hb)
  have hp : shapeCast S2000x256 x0 shapeCasts_S2000x256_S2000x256 (ix2 p q) = x0 (ix2 p q) := congrFun e0 _
  have hu : shapeCast S2000x256 x1 shapeCasts_S2000x256_S2000x256 (ix2 p q) = x1 (ix2 p q) := congrFun e1 _
  refine (congrArg₂ (fun a b : EReal => a + b) (congrArg₂ (fun a b : EReal => a * b) hz hp)
    (congrArg₂ (fun a b : EReal => a * b) (congrArg (fun z : EReal => Ideal.ofBits .f32 0x3F800000#32 - z) hz) hu)).trans ?_
  unfold blendRow gateRow
  simp only [e0, e1]
  rfl

end Cert.KernelIdeal.Body

end
-- ==== Proof.Region0.lean ====
/-
  The first region: the table of projected updates.

  The grid has 50 points; point `t` stages rows `2000 t … 2000 t + 1999` of the context array, the whole update
  matrix and the whole bias row, and writes back rows `2000 t … 2000 t + 1999` of the table. What it writes at
  row `p`, column `q` of its block is the projected update of context row `2000 t + p` at column `q`: its block
  of ONE whole-array function, the table of projected updates. The 50 blocks tile the 100000 rows, so after the
  region the table's array holds that function — whatever the arrays the region found.
-/
import proofs.«133757_j2705829396959_2_alg».proof.Proof.Gen.KernelIdeal.Frame
import proofs.«133757_j2705829396959_2_alg».proof.Proof.Body
import Idealize.ShloMosaic.Lib.Pipeline.Value

set_option maxRecDepth 16384

noncomputable section

namespace Cert.KernelIdeal.Region0

open Cert.KernelIdeal Cert.KernelIdeal.Gen Cert.GatedUpdate
open Idealize.ShloMosaic Idealize.ShloMosaic.TcCoe Idealize.ShloMosaic.ValueIdx Idealize.SL.Sem
open Idealize.ShloMosaic.Pipeline (Dat)

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the context window and the table's window move one block of rows per
    point; the matrix and the bias stay at their one block. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The table of projected updates of the context array the region finds, by the matrix and the bias row it finds. -/
def table (c : Dev nD) : S100000x256.Idx → EReal :=
  updTable (V c main_arg1 : S100000x256.Idx → EReal) (V c main_call0_v0 : S256x256.Idx → EReal)
    (fun q => (V c main_call0_v1 : S1x256.Idx → EReal) (ix2 (0 : Fin 1) q))

/-- The context window's block at point `t` is rows `2000 t …` of the context array. -/
theorem ctx_block_apply (c : Dev nD) (t : Fin cfg0.N) (y : S2000x256.Idx) (k : S100000x256.Idx)
    (hk0 : (k 0).val = 2000 * t.val + (y 0).val) (hk1 : (k 1).val = (y 1).val) :
    (iblk0 V c 0 t : Vec Ideal S2000x256 .f32) y = (V c main_arg1 : S100000x256.Idx → EReal) k := by
  obtain ⟨e0, e1, -⟩ := idx_facts t
  unfold iblk0
  rw [View.read_apply]
  show V c main_arg1 _ = V c main_arg1 _
  refine congrArg (V c main_arg1) (funext fun a => Fin.ext ?_)
  match a with
  | ⟨0, _⟩ => show win0_0.index t 0 * 2000 + 1 * (y 0).val = (k 0).val; rw [e0, hk0]; omega
  | ⟨1, _⟩ => show win0_0.index t 1 * 256 + 1 * (y 1).val = (k 1).val; rw [e1, hk1]; omega

/-- The matrix window's block at every point is the whole matrix. -/
theorem mat_block (c : Dev nD) (t : Fin cfg0.N) :
    (iblk0 V c 1 t : Vec Ideal S256x256 .bf16) = (V c main_call0_v0 : S256x256.Idx → EReal) := by
  obtain ⟨-, -, e0, e1, -⟩ := idx_facts t
  funext y
  unfold iblk0
  rw [View.read_apply]
  show V c main_call0_v0 _ = V c main_call0_v0 y
  refine congrArg (V c main_call0_v0) (funext fun a => Fin.ext ?_)
  match a with
  | ⟨0, _⟩ => show win0_1.index t 0 * 256 + 1 * (y 0).val = (y 0).val; rw [e0]; omega
  | ⟨1, _⟩ => show win0_1.index t 1 * 256 + 1 * (y 1).val = (y 1).val; rw [e1]; omega

/-- The bias window's block at every point is the whole bias row. -/
theorem bias_block (c : Dev nD) (t : Fin cfg0.N) :
    (iblk0 V c 2 t : Vec Ideal S1x256 .f32) = (V c main_call0_v1 : S1x256.Idx → EReal) := by
  obtain ⟨-, -, -, -, e0, e1, -⟩ := idx_facts t
  funext y
  unfold iblk0
  rw [View.read_apply]
  show V c main_call0_v1 _ = V c main_call0_v1 y
  refine congrArg (V c main_call0_v1) (funext fun a => Fin.ext ?_)
  match a with
  | ⟨0, _⟩ => show win0_2.index t 0 * 1 + 1 * (y 0).val = (y 0).val; rw [e0]; omega
  | ⟨1, _⟩ => show win0_2.index t 1 * 256 + 1 * (y 1).val = (y 1).val; rw [e1]; omega

/-- The body's block at an entry is the table at the entry's place in the array, for ANY block `x0` that is rows
    `2000 n …` of an array `A`. -/
theorem entry (x0 : Vec Ideal S2000x256 .f32) (A : Rows 100000) (W : Rows 256) (B : S1x256.Idx → EReal) (n : Nat)
    (hx : ∀ (y : S2000x256.Idx) (k : S100000x256.Idx), (k 0).val = 2000 * n + (y 0).val → (k 1).val = (y 1).val → x0 y = A k)
    (j : S2000x256.Idx) (i : S100000x256.Idx) (hi0 : (i 0).val = 2000 * n + (j 0).val) (hi1 : (i 1).val = (j 1).val) :
    k0_pay1 (F := Ideal) x0 W B j = updTable A W (fun q => B (ix2 (0 : Fin 1) q)) i := by
  obtain ⟨p, q, rfl⟩ : ∃ (p : Fin 2000) (q : Fin 256), j = ix2 p q := ⟨j 0, j 1, eq_ix2 j⟩
  obtain ⟨r, q', rfl⟩ : ∃ (r : Fin 100000) (q' : Fin 256), i = ix2 r q' := ⟨i 0, i 1, eq_ix2 i⟩
  obtain rfl : q' = q := Fin.ext hi1
  rw [Body.upd_payload_apply, updTable_apply]
  refine congrArg (fun g => updRow g W (fun q => B (ix2 (0 : Fin 1) q)) q') (funext fun k => ?_)
  exact hx (ix2 p k) (ix2 r k) hi0 rfl

/-- WHAT POINT `t` WRITES BACK is block `t` of the table. -/
theorem flushed_eq (c : Dev nD) (t : Fin cfg0.N) :
    (dat0 V c).flushed 3 t = ((cfg0.win 3).blk t).view.read (Elt Ideal) (table V c) := by
  obtain ⟨-, -, -, -, -, -, e0, e1⟩ := idx_facts t
  show (cfg0.win 3).cut (grid0.coords t) ((dat0 V c).after 3 t) = _
  rw [after0_3]
  unfold out0_3
  rw [View.canon_unit_zero hz]
  simp only [View.ld_unit_zero (S := S2000x256) hz, View.ld_unit_zero (S := S256x256) hz, View.ld_unit_zero (S := S1x256) hz]
  rw [mat_block V c t, bias_block V c t]
  funext j
  show k0_pay1 (F := Ideal) (iblk0 V c 0 t) (V c main_call0_v0) (V c main_call0_v1) j
    = table V c (((cfg0.win 3).blk t).view.emb j)
  refine entry (iblk0 V c 0 t) (V c main_arg1) (V c main_call0_v0) (V c main_call0_v1) t.val
    (fun y k h0 h1 => ctx_block_apply V c t y k h0 h1) j (((cfg0.win 3).blk t).view.emb j) ?_ ?_
  · show win0_3.index t 0 * 2000 + 1 * (j 0).val = 2000 * t.val + (j 0).val; rw [e0]; omega
  · show win0_3.index t 1 * 256 + 1 * (j 1).val = (j 1).val; rw [e1]; omega

/-- An index of the table's array is in point `t`'s block iff each coordinate is in the block's range on its axis. -/
theorem mem_blk (t : Fin cfg0.N) (i : S100000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_call0_v2).slice (win0_3.rect t)).set ↔ _
  rw [View.set_slice_whole, Rect.mem_set_unit]
  exact Iff.rfl

/-- Every row of the table is in the block of the point its number divided by 2000 names. -/
theorem cover (i : S100000x256.Idx) : ∃ t : Fin cfg0.N, (cfg0.win 3).flush t = true ∧ i ∈ ((cfg0.win 3).blk t).view.set := by
  have hN : cfg0.N = 50 := N_0
  have hi0 : (i 0).val < 100000 := (i 0).isLt
  have hi1 : (i 1).val < 256 := (i 1).isLt
  refine ⟨⟨(i 0).val / 2000, by rw [hN]; omega⟩, flush0_3 _, ?_⟩
  rw [mem_blk]
  obtain ⟨-, -, -, -, -, -, e0, e1⟩ := idx_facts ⟨(i 0).val / 2000, by rw [hN]; omega⟩
  intro a
  match a with
  | ⟨0, _⟩ =>
    show win0_3.index ⟨(i 0).val / 2000, _⟩ 0 * 2000 ≤ (i 0).val ∧ (i 0).val < win0_3.index ⟨(i 0).val / 2000, _⟩ 0 * 2000 + 2000
    rw [e0]; show (i 0).val / 2000 * 2000 ≤ (i 0).val ∧ (i 0).val < (i 0).val / 2000 * 2000 + 2000; omega
  | ⟨1, _⟩ =>
    show win0_3.index ⟨(i 0).val / 2000, _⟩ 1 * 256 ≤ (i 1).val ∧ (i 1).val < win0_3.index ⟨(i 0).val / 2000, _⟩ 1 * 256 + 256
    rw [e1]; omega

/-- AFTER THE REGION the table's array holds the table of projected updates. -/
theorem final (c : Dev nD) : (dat0 V c).arrAt 3 cfg0.N = table V c :=
  (dat0 V c).arrAt_eq_of_cover 3 (table V c) (fun t _ => flushed_eq V c t) cover

end Cert.KernelIdeal.Region0

end
-- ==== Proof.Region1.lean ====
/-
  The second region: the gated blend.

  The grid has 200 points; point `t` stages rows `2000 t … 2000 t + 1999` of the gathered node rows and of the
  gathered update rows, the two whole gate matrices and the whole gate bias row, and writes back rows
  `2000 t … 2000 t + 1999` of the new states. What it writes at row `p`, column `q` of its block is the blend of
  node row `2000 t + p` with update row `2000 t + p`, at column `q`: its block of ONE whole-array function. The
  200 blocks tile the 400000 rows, so after the region the new states' array holds that function — whatever the
  arrays the region found.
-/
import proofs.«133757_j2705829396959_2_alg».proof.Proof.Gen.KernelIdeal.Frame
import proofs.«133757_j2705829396959_2_alg».proof.Proof.Body
import Idealize.ShloMosaic.Lib.Pipeline.Value

set_option maxRecDepth 16384

noncomputable section

namespace Cert.KernelIdeal.Region1

open Cert.KernelIdeal Cert.KernelIdeal.Gen Cert.GatedUpdate
open Idealize.ShloMosaic Idealize.ShloMosaic.TcCoe Idealize.ShloMosaic.ValueIdx Idealize.SL.Sem
open Idealize.ShloMosaic.Pipeline (Dat)

-- the buffer contents the region is entered with: any
variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the two row windows and the output's window move one block of rows per
    point; the two matrices and the bias stay at their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- The blend of the node rows and the update rows the region finds, by the gate matrices and the bias row it finds. -/
def states (c : Dev nD) : S400000x256.Idx → EReal :=
  blend (V c main_call0_v9 : S400000x256.Idx → EReal) (V c main_call0_v16 : S400000x256.Idx → EReal)
    (V c main_call0_v18 : S256x256.Idx → EReal) (V c main_call0_v20 : S256x256.Idx → EReal)
    (fun q => (V c main_call0_v21 : S1x256.Idx → EReal) (ix2 (0 : Fin 1) q))

/-- The node window's block at point `t` is rows `2000 t …` of the gathered node rows. -/
theorem node_block_apply (c : Dev nD) (t : Fin cfg1.N) (y : S2000x256.Idx) (k : S400000x256.Idx)
    (hk0 : (k 0).val = 2000 * t.val + (y 0).val) (hk1 : (k 1).val = (y 1).val) :
    (iblk1 V c 0 t : Vec Ideal S2000x256 .f32) y = (V c main_call0_v9 : S400000x256.Idx → EReal) k := by
  obtain ⟨e0, e1, -⟩ := idx_facts t
  unfold iblk1
  rw [View.read_apply]
  show V c main_call0_v9 _ = V c main_call0_v9 _
  refine congrArg (V c main_call0_v9) (funext fun a => Fin.ext ?_)
  match a with
  | ⟨0, _⟩ => show win1_0.index t 0 * 2000 + 1 * (y 0).val = (k 0).val; rw [e0, hk0]; omega
  | ⟨1, _⟩ => show win1_0.index t 1 * 256 + 1 * (y 1).val = (k 1).val; rw [e1, hk1]; omega

/-- The update window's block at point `t` is rows `2000 t …` of the gathered update rows. -/
theorem upd_block_apply (c : Dev nD) (t : Fin cfg1.N) (y : S2000x256.Idx) (k : S400000x256.Idx)
    (hk0 : (k 0).val = 2000 * t.val + (y 0).val) (hk1 : (k 1).val = (y 1).val) :
    (iblk1 V c 1 t : Vec Ideal S2000x256 .f32) y = (V c main_call0_v16 : S400000x256.Idx → EReal) k := by
  obtain ⟨-, -, e0, e1, -⟩ := idx_facts t
  unfold iblk1
  rw [View.read_apply]
  show V c main_call0_v16 _ = V c main_call0_v16 _
  refine congrArg (V c main_call0_v16) (funext fun a => Fin.ext ?_)
  match a with
  | ⟨0, _⟩ => show win1_1.index t 0 * 2000 + 1 * (y 0).val = (k 0).val; rw [e0, hk0]; omega
  | ⟨1, _⟩ => show win1_1.index t 1 * 256 + 1 * (y 1).val = (k 1).val; rw [e1, hk1]; omega

/-- The first gate matrix's block at every point is the whole matrix. -/
theorem mat1_block (c : Dev nD) (t : Fin cfg1.N) :
    (iblk1 V c 2 t : Vec Ideal S256x256 .bf16) = (V c main_call0_v18 : S256x256.Idx → EReal) := by
  obtain ⟨-, -, -, -, e0, e1, -⟩ := idx_facts t
  funext y
  unfold iblk1
  rw [View.read_apply]
  show V c main_call0_v18 _ = V c main_call0_v18 y
  refine congrArg (V c main_call0_v18) (funext fun a => Fin.ext ?_)
  match a with
  | ⟨0, _⟩ => show win1_2.index t 0 * 256 + 1 * (y 0).val = (y 0).val; rw [e0]; omega
  | ⟨1, _⟩ => show win1_2.index t 1 * 256 + 1 * (y 1).val = (y 1).val; rw [e1]; omega

/-- The second gate matrix's block at every point is the whole matrix. -/
theorem mat2_block (c : Dev nD) (t : Fin cfg1.N) :
    (iblk1 V c 3 t : Vec Ideal S256x256 .bf16) = (V c main_call0_v20 : S256x256.Idx → EReal) := by
  obtain ⟨-, -, -, -, -, -, e0, e1, -⟩ := idx_facts t
  funext y
  unfold iblk1
  rw [View.read_apply]
  show V c main_call0_v20 _ = V c main_call0_v20 y
  refine congrArg (V c main_call0_v20) (funext fun a => Fin.ext ?_)
  match a with
  | ⟨0, _⟩ => show win1_3.index t 0 * 256 + 1 * (y 0).val = (y 0).val; rw [e0]; omega
  | ⟨1, _⟩ => show win1_3.index t 1 * 256 + 1 * (y 1).val = (y 1).val; rw [e1]; omega

/-- The gate bias window's block at every point is the whole bias row. -/
theorem bias_block (c : Dev nD) (t : Fin cfg1.N) :
    (iblk1 V c 4 t : Vec Ideal S1x256 .f32) = (V c main_call0_v21 : S1x256.Idx → EReal) := by
  obtain ⟨-, -, -, -, -, -, -, -, e0, e1, -⟩ := idx_facts t
  funext y
  unfold iblk1
  rw [View.read_apply]
  show V c main_call0_v21 _ = V c main_call0_v21 y
  refine congrArg (V c main_call0_v21) (funext fun a => Fin.ext ?_)
  match a with
  | ⟨0, _⟩ => show win1_4.index t 0 * 1 + 1 * (y 0).val = (y 0).val; rw [e0]; omega
  | ⟨1, _⟩ => show win1_4.index t 1 * 256 + 1 * (y 1).val = (y 1).val; rw [e1]; omega

/-- The body's block at an entry is the blend at the entry's place in the array, for ANY blocks `x0`, `x1` that are
    rows `2000 n …` of arrays `A`, `U`. -/
theorem entry (x0 x1 : Vec Ideal S2000x256 .f32) (A U : Rows 400000) (W1 W2 : Rows 256) (B : S1x256.Idx → EReal) (n : Nat)
    (hx0 : ∀ (y : S2000x256.Idx) (k : S400000x256.Idx), (k 0).val = 2000 * n + (y 0).val → (k 1).val = (y 1).val → x0 y = A k)
    (hx1 : ∀ (y : S2000x256.Idx) (k : S400000x256.Idx), (k 0).val = 2000 * n + (y 0).val → (k 1).val = (y 1).val → x1 y = U k)
    (j : S2000x256.Idx) (i : S400000x256.Idx) (hi0 : (i 0).val = 2000 * n + (j 0).val) (hi1 : (i 1).val = (j 1).val) :
    k1_pay1 (F := Ideal) x0 x1 W1 W2 B j = blend A U W1 W2 (fun q => B (ix2 (0 : Fin 1) q)) i := by
  obtain ⟨p, q, rfl⟩ : ∃ (p : Fin 2000) (q : Fin 256), j = ix2 p q := ⟨j 0, j 1, eq_ix2 j⟩
  obtain ⟨r, q', rfl⟩ : ∃ (r : Fin 400000) (q' : Fin 256), i = ix2 r q' := ⟨i 0, i 1, eq_ix2 i⟩
  obtain rfl : q' = q := Fin.ext hi1
  rw [Body.blend_payload_apply, blend_apply]
  have h0 : (fun k => x0 (ix2 p k)) = row A r := funext fun k => hx0 (ix2 p k) (ix2 r k) hi0 rfl
  have h1 : (fun k => x1 (ix2 p k)) = row U r := funext fun k => hx1 (ix2 p k) (ix2 r k) hi0 rfl
  rw [h0, h1]

/-- WHAT POINT `t` WRITES BACK is block `t` of the blend. -/
theorem flushed_eq (c : Dev nD) (t : Fin cfg1.N) :
    (dat1 V c).flushed 5 t = ((cfg1.win 5).blk t).view.read (Elt Ideal) (states V c) := by
  obtain ⟨-, -, -, -, -, -, -, -, -, -, e0, e1⟩ := idx_facts t
  show (cfg1.win 5).cut (grid1.coords t) ((dat1 V c).after 5 t) = _
  rw [after1_5]
  unfold out1_5
  rw [View.canon_unit_zero hz]
  simp only [View.ld_unit_zero (S := S2000x256) hz, View.ld_unit_zero (S := S256x256) hz, View.ld_unit_zero (S := S1x256) hz]
  rw [mat1_block V c t, mat2_block V c t, bias_block V c t]
  funext j
  show k1_pay1 (F := Ideal) (iblk1 V c 0 t) (iblk1 V c 1 t) (V c main_call0_v18) (V c main_call0_v20) (V c main_call0_v21) j
    = states V c (((cfg1.win 5).blk t).view.emb j)
  refine entry (iblk1 V c 0 t) (iblk1 V c 1 t) (V c main_call0_v9) (V c main_call0_v16) (V c main_call0_v18) (V c main_call0_v20)
    (V c main_call0_v21) t.val
    (fun y k h0 h1 => node_block_apply V c t y k h0 h1) (fun y k h0 h1 => upd_block_apply V c t y k h0 h1)
    j (((cfg1.win 5).blk t).view.emb j) ?_ ?_
  · show win1_5.index t 0 * 2000 + 1 * (j 0).val = 2000 * t.val + (j 0).val; rw [e0]; omega
  · show win1_5.index t 1 * 256 + 1 * (j 1).val = (j 1).val; rw [e1]; omega

/-- An index of the new states' array is in point `t`'s block iff each coordinate is in the block's range on its axis. -/
theorem mem_blk (t : Fin cfg1.N) (i : S400000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_call0_v22).slice (win1_5.rect t)).set ↔ _
  rw [View.set_slice_whole, Rect.mem_set_unit]
  exact Iff.rfl

/-- Every row of the new states is in the block of the point its number divided by 2000 names. -/
theorem cover (i : S400000x256.Idx) : ∃ t : Fin cfg1.N, (cfg1.win 5).flush t = true ∧ i ∈ ((cfg1.win 5).blk t).view.set := by
  have hN : cfg1.N = 200 := N_1
  have hi0 : (i 0).val < 400000 := (i 0).isLt
  have hi1 : (i 1).val < 256 := (i 1).isLt
  refine ⟨⟨(i 0).val / 2000, by rw [hN]; omega⟩, flush1_5 _, ?_⟩
  rw [mem_blk]
  obtain ⟨-, -, -, -, -, -, -, -, -, -, e0, e1⟩ := idx_facts ⟨(i 0).val / 2000, by rw [hN]; omega⟩
  intro a
  match a with
  | ⟨0, _⟩ =>
    show win1_5.index ⟨(i 0).val / 2000, _⟩ 0 * 2000 ≤ (i 0).val ∧ (i 0).val < win1_5.index ⟨(i 0).val / 2000, _⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, _⟩ 1 * 256 ≤ (i 1).val ∧ (i 1).val < win1_5.index ⟨(i 0).val / 2000, _⟩ 1 * 256 + 256
    rw [e1]; omega

/-- AFTER THE REGION the new states' array holds the blend. -/
theorem final (c : Dev nD) : (dat1 V c).arrAt 5 cfg1.N = states V c :=
  (dat1 V c).arrAt_eq_of_cover 5 (states V c) (fun t _ => flushed_eq V c t) cover

end Cert.KernelIdeal.Region1

end
-- ==== Proof.KernelValue.lean ====
/-
  The idealized kernel's result as one function of the launch memory.

  Read back through the five segments: the last host stretch scatters the second region's new states into the
  node encodings at the wrapped key indices; the second region leaves the blend of its two gathered arrays; the
  middle host stretch gathers the node rows at the wrapped key indices and the rows of the first region's table at
  the wrapped value indices, and cuts the gate matrix in two; the first region leaves the table of projected
  updates of the context rows; the first host stretch only changes the update matrix's float format and adds a
  unit axis to the bias. No stretch and no region writes an argument.
-/
import proofs.«133757_j2705829396959_2_alg».proof.Proof.Gen.KernelIdeal.Frame
import proofs.«133757_j2705829396959_2_alg».proof.Proof.Region0
import proofs.«133757_j2705829396959_2_alg».proof.Proof.Region1
import Idealize.ShloMosaic.Lib.StableHlo.Run

set_option maxRecDepth 16384

noncomputable section

namespace Cert.KernelIdeal.Result

open Cert.KernelIdeal Cert.KernelIdeal.Gen Cert.GatedUpdate
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- Indices into an axis of extent `n`, wrapped as jax wraps them (a negative index counts from the end) and laid
    out as one start index per row. -/
def wrap (n : BitVec 32) (x : IVec S400000 32) : IVec S400000x1 32 :=
  broadcastInDim S400000x1 ![0] bcast_S400000_S400000x1_0
    (select (cmpi .slt x (broadcastInDim S400000 ![] bcast_S_S400000 (constantI S_ 32 0#32)))
      (addi x (broadcastInDim S400000 ![] bcast_S_S400000 (constantI S_ 32 n))) x)

/-! ## The three host stretches, over any contents `X` -/

section Stretches
variable (X : Valuation τ sig (Elt Ideal))

/-- The first stretch: the update matrix in the matrix unit's format. -/
theorem s0_mat : StableHlo.after hostOps0 X (Proc.devRef .tc main_call0_v0)
    = (truncf .bf16 (X (Proc.devRef .tc main_arg4) : FVec Ideal S256x256 .f32) bitsLt_bf16_f32 : FVec Ideal S256x256 .bf16) := by
  after_results; rfl
/-- The first stretch: the update bias with a unit axis. -/
theorem s0_bias : StableHlo.after hostOps0 X (Proc.devRef .tc main_call0_v1)
    = (shapeCast S1x256 (X (Proc.devRef .tc main_arg5) : FVec Ideal S256 .f32) shapeCasts_S256_S1x256 : FVec Ideal S1x256 .f32) := by
  after_results; rfl
theorem s0_arg1 : StableHlo.after hostOps0 X (Proc.devRef .tc main_arg1) = X (Proc.devRef .tc main_arg1) := by after_results
theorem s0_arg0 : StableHlo.after hostOps0 X (Proc.devRef .tc main_arg0) = X (Proc.devRef .tc main_arg0) := by after_results
theorem s0_arg2 : StableHlo.after hostOps0 X (Proc.devRef .tc main_arg2) = X (Proc.devRef .tc main_arg2) := by after_results
theorem s0_arg3 : StableHlo.after hostOps0 X (Proc.devRef .tc main_arg3) = X (Proc.devRef .tc main_arg3) := by after_results
theorem s0_arg6 : StableHlo.after hostOps0 X (Proc.devRef .tc main_arg6) = X (Proc.devRef .tc main_arg6) := by after_results
theorem s0_arg7 : StableHlo.after hostOps0 X (Proc.devRef .tc main_arg7) = X (Proc.devRef .tc main_arg7) := by after_results

/-- The middle stretch: the node rows gathered at the wrapped key indices. -/
theorem s1_nodes : StableHlo.after hostOps1 X (Proc.devRef .tc main_call0_v9)
    = (Host.gather gather_S500000x256_S400000x1_S400000x256_1_0_n_n_0_1_1256
        (X (Proc.devRef .tc main_arg0) : FVec Ideal S500000x256 .f32) (wrap 500000#32 (X (Proc.devRef .tc main_arg2))) : FVec Ideal S400000x256 .f32) := by
  after_results; rfl
/-- The middle stretch: the table's rows gathered at the wrapped value indices. -/
theorem s1_upds : StableHlo.after hostOps1 X (Proc.devRef .tc main_call0_v16)
    = (Host.gather gather_S100000x256_S400000x1_S400000x256_1_0_n_n_0_1_1256
        (X (Proc.devRef .tc main_call0_v2) : FVec Ideal S100000x256 .f32) (wrap 100000#32 (X (Proc.devRef .tc main_arg3))) : FVec Ideal S400000x256 .f32) := by
  after_results; rfl
/-- The middle stretch: the upper half of the gate matrix. -/
theorem s1_mat1 : StableHlo.after hostOps1 X (Proc.devRef .tc main_call0_v18)
    = (truncf .bf16 (extractStridedSlice S256x256 ![0, 0] (X (Proc.devRef .tc main_arg6) : FVec Ideal S512x256 .f32) slices_S512x256_S256x256_0_0 : FVec Ideal S256x256 .f32) bitsLt_bf16_f32 : FVec Ideal S256x256 .bf16) := by
  after_results; rfl
/-- The middle stretch: the lower half of the gate matrix. -/
theorem s1_mat2 : StableHlo.after hostOps1 X (Proc.devRef .tc main_call0_v20)
    = (truncf .bf16 (extractStridedSlice S256x256 ![256, 0] (X (Proc.devRef .tc main_arg6) : FVec Ideal S512x256 .f32) slices_S512x256_S256x256_256_0 : FVec Ideal S256x256 .f32) bitsLt_bf16_f32 : FVec Ideal S256x256 .bf16) := by
  after_results; rfl
/-- The middle stretch: the gate bias with a unit axis. -/
theorem s1_bias : StableHlo.after hostOps1 X (Proc.devRef .tc main_call0_v21)
    = (shapeCast S1x256 (X (Proc.devRef .tc main_arg7) : FVec Ideal S256 .f32) shapeCasts_S256_S1x256 : FVec Ideal S1x256 .f32) := by
  after_results; rfl
theorem s1_arg0 : StableHlo.after hostOps1 X (Proc.devRef .tc main_arg0) = X (Proc.devRef .tc main_arg0) := by after_results
theorem s1_arg2 : StableHlo.after hostOps1 X (Proc.devRef .tc main_arg2) = X (Proc.devRef .tc main_arg2) := by after_results

/-- The last stretch with ANY function `Φ` in the place of its last operation's: the program's own operations but
    the last, then an operation reading the same three buffers into the same result buffer through `Φ`. What the
    result buffer ends holding does not depend on which function the last operation applies, so it is stated for
    any; the program's is the scatter. -/
abbrev lastStretch (Φ : FVec Ideal S500000x256 .f32 → IVec S400000x1 32 → FVec Ideal S400000x256 .f32 → FVec Ideal S500000x256 .f32) :
    List (HloOp τ sig (Elt Ideal)) :=
  (hostOps2 (F := Ideal)).dropLast ++
    [StableHlo.TRef.ternary (.of main_arg0 : StableHlo.TRef sig ⟨S500000x256, .f32⟩) (.of main_call0_v28 : StableHlo.TRef sig ⟨S400000x1, .i32⟩)
      (.of main_call0_v22 : StableHlo.TRef sig ⟨S400000x256, .f32⟩) (.of main_v0 : StableHlo.TRef sig ⟨S500000x256, .f32⟩) Φ]

/-- After it the result buffer holds `Φ` of the node encodings, the wrapped key indices and the second region's output. -/
theorem lastStretch_result (Φ : FVec Ideal S500000x256 .f32 → IVec S400000x1 32 → FVec Ideal S400000x256 .f32 → FVec Ideal S500000x256 .f32) :
    StableHlo.after (lastStretch Φ) X (Proc.devRef .tc main_v0)
      = Φ (X (Proc.devRef .tc main_arg0)) (wrap 500000#32 (X (Proc.devRef .tc main_arg2))) (X (Proc.devRef .tc main_call0_v22)) := by
  simp only [lastStretch, hostOps2, List.dropLast, List.cons_append, List.nil_append]
  after_results; rfl

/-- The last stretch: the new states scattered into the node encodings at the wrapped key indices. -/
theorem s2_result : StableHlo.after hostOps2 X (Proc.devRef .tc main_v0)
    = Host.scatter scatter_S500000x256_S400000x1_S400000x256_1_0_0_1 (fun _ b => b)
        (X (Proc.devRef .tc main_arg0) : FVec Ideal S500000x256 .f32) (wrap 500000#32 (X (Proc.devRef .tc main_arg2)))
        (X (Proc.devRef .tc main_call0_v22) : FVec Ideal S400000x256 .f32) :=
  lastStretch_result X (fun x i u => Host.scatter scatter_S500000x256_S400000x1_S400000x256_1_0_0_1 (fun _ b => b) x i u)

end Stretches

/-! ## The read-back, segment by segment -/

-- the first stretch, from the launch contents
theorem V1_ctx (c : Dev nD) : V1 m ρ c main_arg1 = (m ((c : Thread nD τ).loc main_arg1)) := s0_arg1 (W0 m ρ c)
theorem V1_mat (c : Dev nD) : V1 m ρ c main_call0_v0
    = (truncf .bf16 ((m ((c : Thread nD τ).loc main_arg4)) : FVec Ideal S256x256 .f32) bitsLt_bf16_f32 : FVec Ideal S256x256 .bf16) := s0_mat (W0 m ρ c)
theorem V1_bias (c : Dev nD) : V1 m ρ c main_call0_v1
    = (shapeCast S1x256 ((m ((c : Thread nD τ).loc main_arg5)) : FVec Ideal S256 .f32) shapeCasts_S256_S1x256 : FVec Ideal S1x256 .f32) := s0_bias (W0 m ρ c)

/-- The update matrix and bias as the first region reads them. -/
abbrev updMat (c : Dev nD) : FVec Ideal S256x256 .bf16 := truncf .bf16 ((m ((c : Thread nD τ).loc main_arg4)) : FVec Ideal S256x256 .f32) bitsLt_bf16_f32
abbrev updBias (c : Dev nD) : Fin 256 → EReal :=
  fun q => (shapeCast S1x256 ((m ((c : Thread nD τ).loc main_arg5)) : FVec Ideal S256 .f32) shapeCasts_S256_S1x256 : FVec Ideal S1x256 .f32) (ix2 (0 : Fin 1) q)

/-- After the first region the table's buffer holds the projected updates of the launch context rows. -/
theorem table_eq (c : Dev nD) : W2 m ρ c (Proc.devRef .tc main_call0_v2)
    = updTable ((m ((c : Thread nD τ).loc main_arg1)) : S100000x256.Idx → EReal) (updMat m c) (updBias m c) :=
  (W2_arr m ρ c 3).trans ((Region0.final (V1 m ρ) c).trans (by
    unfold Region0.table
    rw [V1_ctx, V1_mat, V1_bias]))

-- the first region writes no argument
theorem W2_arg0 (c : Dev nD) : W2 m ρ c (Proc.devRef .tc main_arg0) = (m ((c : Thread nD τ).loc main_arg0)) :=
  (W2_of_ne m ρ c main_arg0 (by decide)).trans (s0_arg0 (W0 m ρ c))
theorem W2_arg2 (c : Dev nD) : W2 m ρ c (Proc.devRef .tc main_arg2) = (m ((c : Thread nD τ).loc main_arg2)) :=
  (W2_of_ne m ρ c main_arg2 (by decide)).trans (s0_arg2 (W0 m ρ c))
theorem W2_arg3 (c : Dev nD) : W2 m ρ c (Proc.devRef .tc main_arg3) = (m ((c : Thread nD τ).loc main_arg3)) :=
  (W2_of_ne m ρ c main_arg3 (by decide)).trans (s0_arg3 (W0 m ρ c))
theorem W2_arg6 (c : Dev nD) : W2 m ρ c (Proc.devRef .tc main_arg6) = (m ((c : Thread nD τ).loc main_arg6)) :=
  (W2_of_ne m ρ c main_arg6 (by decide)).trans (s0_arg6 (W0 m ρ c))
theorem W2_arg7 (c : Dev nD) : W2 m ρ c (Proc.devRef .tc main_arg7) = (m ((c : Thread nD τ).loc main_arg7)) :=
  (W2_of_ne m ρ c main_arg7 (by decide)).trans (s0_arg7 (W0 m ρ c))

/-- The gathered node rows, the gathered table rows, the two gate matrices and the gate bias, of the launch memory. -/
abbrev nodeRows (c : Dev nD) : FVec Ideal S400000x256 .f32 :=
  Host.gather gather_S500000x256_S400000x1_S400000x256_1_0_n_n_0_1_1256 ((m ((c : Thread nD τ).loc main_arg0)) : FVec Ideal S500000x256 .f32)
    (wrap 500000#32 (m ((c : Thread nD τ).loc main_arg2)))
abbrev updRows (c : Dev nD) : FVec Ideal S400000x256 .f32 :=
  Host.gather gather_S100000x256_S400000x1_S400000x256_1_0_n_n_0_1_1256
    (updTable ((m ((c : Thread nD τ).loc main_arg1)) : S100000x256.Idx → EReal) (updMat m c) (updBias m c) : FVec Ideal S100000x256 .f32)
    (wrap 100000#32 (m ((c : Thread nD τ).loc main_arg3)))
abbrev gateMat1 (c : Dev nD) : FVec Ideal S256x256 .bf16 :=
  truncf .bf16 (extractStridedSlice S256x256 ![0, 0] ((m ((c : Thread nD τ).loc main_arg6)) : FVec Ideal S512x256 .f32) slices_S512x256_S256x256_0_0 : FVec Ideal S256x256 .f32) bitsLt_bf16_f32
abbrev gateMat2 (c : Dev nD) : FVec Ideal S256x256 .bf16 :=
  truncf .bf16 (extractStridedSlice S256x256 ![256, 0] ((m ((c : Thread nD τ).loc main_arg6)) : FVec Ideal S512x256 .f32) slices_S512x256_S256x256_256_0 : FVec Ideal S256x256 .f32) bitsLt_bf16_f32
abbrev gateBias (c : Dev nD) : Fin 256 → EReal :=
  fun q => (shapeCast S1x256 ((m ((c : Thread nD τ).loc main_arg7)) : FVec Ideal S256 .f32) shapeCasts_S256_S1x256 : FVec Ideal S1x256 .f32) (ix2 (0 : Fin 1) q)

-- the middle stretch, from the first region's exit contents
theorem V3_nodes (c : Dev nD) : V3 m ρ c main_call0_v9 = nodeRows m c :=
  (s1_nodes (W2 m ρ c)).trans (by rw [W2_arg0, W2_arg2])
theorem V3_upds (c : Dev nD) : V3 m ρ c main_call0_v16 = updRows m c :=
  (s1_upds (W2 m ρ c)).trans (by rw [table_eq, W2_arg3])
theorem V3_mat1 (c : Dev nD) : V3 m ρ c main_call0_v18 = gateMat1 m c :=
  (s1_mat1 (W2 m ρ c)).trans (by rw [W2_arg6])
theorem V3_mat2 (c : Dev nD) : V3 m ρ c main_call0_v20 = gateMat2 m c :=
  (s1_mat2 (W2 m ρ c)).trans (by rw [W2_arg6])
theorem V3_bias (c : Dev nD) : V3 m ρ c main_call0_v21
    = (shapeCast S1x256 ((m ((c : Thread nD τ).loc main_arg7)) : FVec Ideal S256 .f32) shapeCasts_S256_S1x256 : FVec Ideal S1x256 .f32) :=
  (s1_bias (W2 m ρ c)).trans (by rw [W2_arg7])

/-- The kernel's new states: the blend of the gathered node rows with the gathered rows of the table. -/
def newStates (c : Dev nD) : FVec Ideal S400000x256 .f32 :=
  blend (nodeRows m c) (updRows m c) (gateMat1 m c) (gateMat2 m c) (gateBias m c)

/-- After the second region the new states' buffer holds them. -/
theorem states_eq (c : Dev nD) : W4 m ρ c (Proc.devRef .tc main_call0_v22) = newStates m c :=
  (W4_arr m ρ c 5).trans ((Region1.final (V3 m ρ) c).trans (by
    unfold Region1.states newStates
    rw [V3_nodes, V3_upds, V3_mat1, V3_mat2, V3_bias]))

-- neither the middle stretch nor the second region writes the node encodings or the key indices
theorem W4_arg0 (c : Dev nD) : W4 m ρ c (Proc.devRef .tc main_arg0) = (m ((c : Thread nD τ).loc main_arg0)) :=
  (W4_of_ne m ρ c main_arg0 (by decide)).trans ((s1_arg0 (W2 m ρ c)).trans (W2_arg0 m ρ c))
theorem W4_arg2 (c : Dev nD) : W4 m ρ c (Proc.devRef .tc main_arg2) = (m ((c : Thread nD τ).loc main_arg2)) :=
  (W4_of_ne m ρ c main_arg2 (by decide)).trans ((s1_arg2 (W2 m ρ c)).trans (W2_arg2 m ρ c))

/-- THE KERNEL'S RESULT: the new states scattered into the launch node encodings at the wrapped key indices. -/
theorem result_eq (c : Dev nD) : W5 m ρ c (Proc.devRef .tc main_v0)
    = Host.scatter scatter_S500000x256_S400000x1_S400000x256_1_0_0_1 (fun _ b => b)
        ((m ((c : Thread nD τ).loc main_arg0)) : FVec Ideal S500000x256 .f32) (wrap 500000#32 (m ((c : Thread nD τ).loc main_arg2))) (newStates m c) :=
  (s2_result (W4 m ρ c)).trans (by rw [W4_arg0, W4_arg2, states_eq])

end Cert.KernelIdeal.Result

end
-- ==== Proof.RefValue.lean ====
/-
  The reference's new states, read stage by stage.

  The reference gathers the node rows and the context rows first, then projects every gathered context row,
  gates and blends. Read at row `r`, column `q`: its projected update is the projected update of gathered context
  row `r`, its sigmoid — spelled `1 / (1 + exp (−x))` with the literal one — is the logistic function, and its
  result is the blend of gathered node row `r` with that update row, by the two halves of the gate matrix.
-/
import proofs.«133757_j2705829396959_2_alg».proof.Proof.Gen.ReferenceIdeal.Read
import proofs.«133757_j2705829396959_2_alg».proof.Proof.Spec
import Idealize.ShloMosaic.Lib.IdealHost

noncomputable section

namespace Cert.ReferenceIdeal.RefValue

open Cert.ReferenceIdeal Cert.ReferenceIdeal.Read Cert.GatedUpdate
open Idealize.ShloMosaic Idealize.ShloMosaic.ValueIdx

/-- The sigmoid as the reference spells it, with the literal one, is the logistic function. -/
theorem logistic_spelled (x : EReal) :
    Ideal.div (Ideal.ofBits .f32 0x3F800000#32) (Ideal.ofBits .f32 0x3F800000#32 + Ideal.exp (-x)) = Ideal.logistic x := by
  rw [Ideal.ofBits_one_f32]; rfl

/-! ## The operand indices of the three matrix products and of the two bias broadcasts, at `(r, q)` -/

theorem lidx14 (r : Fin 400000) (q k : Fin 256) : lidx_main_v14 (ix2 r q) k = ix2 r k :=
  funext fun a => Fin.ext (by match a with | ⟨0, _⟩ => rfl | ⟨1, _⟩ => rfl)
theorem ridx14 (r : Fin 400000) (q k : Fin 256) : ridx_main_v14 (ix2 r q) k = ix2 k q :=
  funext fun a => Fin.ext (by match a with | ⟨0, _⟩ => rfl | ⟨1, _⟩ => rfl)
theorem lidx20 (r : Fin 400000) (q k : Fin 256) : lidx_main_v20 (ix2 r q) k = ix2 r k :=
  funext fun a => Fin.ext (by match a with | ⟨0, _⟩ => rfl | ⟨1, _⟩ => rfl)
theorem ridx20 (r : Fin 400000) (q k : Fin 256) : ridx_main_v20 (ix2 r q) k = ix2 k q :=
  funext fun a => Fin.ext (by match a with | ⟨0, _⟩ => rfl | ⟨1, _⟩ => rfl)
theorem lidx22 (r : Fin 400000) (q k : Fin 256) : lidx_main_v22 (ix2 r q) k = ix2 r k :=
  funext fun a => Fin.ext (by match a with | ⟨0, _⟩ => rfl | ⟨1, _⟩ => rfl)
theorem ridx22 (r : Fin 400000) (q k : Fin 256) : ridx_main_v22 (ix2 r q) k = ix2 k q :=
  funext fun a => Fin.ext (by match a with | ⟨0, _⟩ => rfl | ⟨1, _⟩ => rfl)
theorem idx16 (r : Fin 400000) (q : Fin 256) : idx_main_v15 (idx_main_v16 (ix2 r q)) = ix1 q :=
  funext fun a => Fin.ext (by match a with | ⟨0, _⟩ => rfl)
theorem idx25 (r : Fin 400000) (q : Fin 256) : idx_main_v24 (idx_main_v25 (ix2 r q)) = ix1 q :=
  funext fun a => Fin.ext (by match a with | ⟨0, _⟩ => rfl)

/-- The reference's projected update at `(r, q)`: the projected update of gathered context row `r`. -/
theorem upd_apply (x0 : (⟨S500000x256, .f32⟩ : BufTy).Contents (Elt Ideal)) (x1 : (⟨S100000x256, .f32⟩ : BufTy).Contents (Elt Ideal)) (x2 x3 : (⟨S400000, .i32⟩ : BufTy).Contents (Elt Ideal)) (x4 : (⟨S256x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (r : Fin 400000) (q : Fin 256) :
    val_main_v18 (F := Ideal) x1 x3 x4 x5 (ix2 r q)
      = updRow (row (val_main_v13 (F := Ideal) x1 x3) r) x4 (fun q => x5 (ix1 q)) q := by
  rw [val_main_v18_apply, val_main_v17_apply, val_main_v14_apply, val_main_v16_apply, val_main_v15_apply]
  simp only [lidx14, ridx14, idx16]
  rfl

/-- The reference's projected updates, as an array: the table of projected updates of the gathered context rows. -/
theorem upd_eq (x0 : (⟨S500000x256, .f32⟩ : BufTy).Contents (Elt Ideal)) (x1 : (⟨S100000x256, .f32⟩ : BufTy).Contents (Elt Ideal)) (x2 x3 : (⟨S400000, .i32⟩ : BufTy).Contents (Elt Ideal)) (x4 : (⟨S256x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) :
    val_main_v18 (F := Ideal) x1 x3 x4 x5 = updTable (val_main_v13 (F := Ideal) x1 x3) x4 (fun q => x5 (ix1 q)) := by
  funext i
  obtain ⟨r, q, rfl⟩ : ∃ (r : Fin 400000) (q : Fin 256), i = ix2 r q := ⟨i 0, i 1, eq_ix2 i⟩
  rw [upd_apply x0 x1 x2 x3 x4 x5 x6 x7, updTable_apply]

/-- The reference's new states at `(r, q)`: the blend of gathered node row `r` with update row `r`. -/
theorem states_apply (x0 : (⟨S500000x256, .f32⟩ : BufTy).Contents (Elt Ideal)) (x1 : (⟨S100000x256, .f32⟩ : BufTy).Contents (Elt Ideal)) (x2 x3 : (⟨S400000, .i32⟩ : BufTy).Contents (Elt Ideal)) (x4 : (⟨S256x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) (r : Fin 400000) (q : Fin 256) :
    val_main_v37 (F := Ideal) x0 x1 x2 x3 x4 x5 x6 x7 (ix2 r q)
      = blendRow (row (val_main_v6 (F := Ideal) x0 x2) r) (row (val_main_v18 (F := Ideal) x1 x3 x4 x5) r)
          (val_main_v19 (F := Ideal) x6) (val_main_v21 (F := Ideal) x6) (fun q => x7 (ix1 q)) q := by
  rw [val_main_v37_apply, val_main_v33_apply, val_main_v36_apply, val_main_v35_apply, val_main_v32_apply, val_main_v30_apply,
    val_main_v28_apply, val_main_v27_apply, val_main_v26_apply, val_main_v23_apply, val_main_v20_apply, val_main_v22_apply,
    val_main_v25_apply, val_main_v24_apply, val_main_v29_apply, val_main_v31_apply, val_main_v34_apply,
    val_main_cst_apply, val_main_cst_3_apply, val_main_cst_4_apply]
  simp only [lidx20, ridx20, lidx22, ridx22, idx25, Ideal.addf_def, Ideal.subf_def, Ideal.mulf_def, Ideal.hostDivf_def,
    Ideal.hostUnary_exp_def, Ideal.hostNegf_def, Ideal.negf_def, Ideal.ofBits_def, logistic_spelled]
  rfl

/-- The reference's new states, as an array. -/
theorem states_eq (x0 : (⟨S500000x256, .f32⟩ : BufTy).Contents (Elt Ideal)) (x1 : (⟨S100000x256, .f32⟩ : BufTy).Contents (Elt Ideal)) (x2 x3 : (⟨S400000, .i32⟩ : BufTy).Contents (Elt Ideal)) (x4 : (⟨S256x256, .f32⟩ : BufTy).Contents (Elt Ideal)) (x5 : (⟨S256, .f32⟩ : BufTy).Contents (Elt Ideal)) (x6 : (⟨S512x256, .f32⟩ : BufTy).Contents (Elt Ideal)) (x7 : (⟨S256, .f32⟩ : BufTy).Contents (Elt Ideal)) :
    val_main_v37 (F := Ideal) x0 x1 x2 x3 x4 x5 x6 x7
      = blend (val_main_v6 (F := Ideal) x0 x2) (updTable (val_main_v13 (F := Ideal) x1 x3) x4 (fun q => x5 (ix1 q)))
          (val_main_v19 (F := Ideal) x6) (val_main_v21 (F := Ideal) x6) (fun q => x7 (ix1 q)) := by
  funext i
  obtain ⟨r, q, rfl⟩ : ∃ (r : Fin 400000) (q : Fin 256), i = ix2 r q := ⟨i 0, i 1, eq_ix2 i⟩
  rw [states_apply x0 x1 x2 x3 x4 x5 x6 x7, blend_apply, upd_eq x0 x1 x2 x3 x4 x5 x6 x7]

end Cert.ReferenceIdeal.RefValue

end
-- ==== Proof.GatherRows.lean ====
/-
  Gathering rows.

  `x[idx]` of an array `x` of `N` rows of 256 at `R` integer indices lowers to a gather whose start indices
  have shape [R, 1]: result entry `(r, q)` is `x` at row `idx[r, 0]` — read as a signed integer and clamped into
  `[0, N − 1]`, as every start index of a gather is — and column `q`. The row chosen depends on `r` and the
  indices alone, not on `x`: gathering rows commutes with any map applied row by row.
-/
import Idealize.ShloMosaic.PureOps.ShapeOps
import Idealize.ShloMosaic.Lib.ValueIdx

noncomputable section

namespace Cert.GatherRows

open Idealize.ShloMosaic Idealize.ShloMosaic.ValueIdx

variable {α : Type}

/-- The dimension numbers of a gather of rows: operand [N, 256], start indices [R, 1], result [R, 256]; axis 0 of
    the operand is indexed and collapsed, axis 1 is taken whole. -/
abbrev rowsDims (N R : Nat) (wf : GatherDims.WF ⟨2, ![N, 256]⟩ ⟨2, ![R, 1]⟩ ⟨2, ![R, 256]⟩ [1] [0] [] [0] [] 1 ![1, 256]) :
    GatherDims ⟨2, ![N, 256]⟩ ⟨2, ![R, 1]⟩ ⟨2, ![R, 256]⟩ where
  offsetDims := [1]
  collapsedSliceDims := [0]
  operandBatchingDims := []
  startIndicesBatchingDims := []
  startIndexMap := [0]
  indexVectorDim := 1
  sliceSizes := ![1, 256]
  wf := wf

/-- The row of the operand that result row `r` reads: the start index at `[r, 0]`, signed, clamped into `[0, N − 1]`. -/
def rowSel {N R w : Nat} (hN : 0 < N) (idx : IVec ⟨2, ![R, 1]⟩ w) (r : Fin R) : Fin N :=
  ⟨min (idx (ix2 r (0 : Fin 1))).toInt.toNat (N - 1), by omega⟩

/-- THE GATHER READ AT `(r, q)`: the operand at the chosen row and column `q`. -/
theorem gather_rows_apply {N R w : Nat} (hN : 0 < N)
    (wf : GatherDims.WF ⟨2, ![N, 256]⟩ ⟨2, ![R, 1]⟩ ⟨2, ![R, 256]⟩ [1] [0] [] [0] [] 1 ![1, 256])
    (x : (⟨2, ![N, 256]⟩ : Shape).Idx → α) (idx : IVec ⟨2, ![R, 1]⟩ w) (y : (⟨2, ![R, 256]⟩ : Shape).Idx) :
    Host.gather (rowsDims N R wf) x idx y = x (ix2 (rowSel hN idx (y 0)) (y 1)) := by
  unfold Host.gather
  refine congrArg x (funext fun a => Fin.ext ?_)
  match a with
  | ⟨0, _⟩ =>
    show (rowsDims N R wf).start y idx 0 + (rowsDims N R wf).batchCoord y 0 + (rowsDims N R wf).offCoord y 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N R wf).startIndexMap from List.mem_singleton.mpr rfl)]
    have hsi : (rowsDims N R wf).siIdx y ⟨List.idxOf (0 : Fin 2) (rowsDims N R wf).startIndexMap,
        List.idxOf_lt_length_iff.2 (List.mem_singleton.mpr rfl)⟩ = ix2 (y 0) (0 : Fin 1) := by
      funext b; refine Fin.ext ?_
      match b with
      | ⟨0, _⟩ => rfl
      | ⟨1, _⟩ => rfl
    rw [hsi]
    rfl
  | ⟨1, _⟩ =>
    show (rowsDims N R wf).start y idx 1 + (rowsDims N R wf).batchCoord y 1 + (rowsDims N R wf).offCoord y 1 = (y 1).val
    rw [GatherDims.batchCoord_eq_zero _ _ _ List.not_mem_nil]
    have hs : (rowsDims N R wf).start y idx 1 = 0 := by
      unfold GatherDims.start
      rw [dif_neg (show ¬ (1 : Fin 2) ∈ (rowsDims N R wf).startIndexMap from (by decide : ¬ (1 : Fin 2) ∈ ([0] : List (Fin 2))))]
    rw [hs]
    simp only [Nat.add_zero, Nat.zero_add]
    unfold GatherDims.offCoord
    rw [dif_pos (show (1 : Fin 2) ∈ (rowsDims N R wf).sKept from (GatherDims.mem_sKept _ _).mpr
      ⟨(by decide : ¬ (1 : Fin 2) ∈ ([0] : List (Fin 2))), List.not_mem_nil⟩)]
    rfl

/-- Gathering rows of an array each of whose rows is a function `f` of the matching row of `x` gives, row by row,
    `f` of the gathered rows of `x`. -/
theorem gather_rows_map {N R w : Nat} (hN : 0 < N)
    (wf : GatherDims.WF ⟨2, ![N, 256]⟩ ⟨2, ![R, 1]⟩ ⟨2, ![R, 256]⟩ [1] [0] [] [0] [] 1 ![1, 256])
    {β : Type} (f : (Fin 256 → α) → Fin 256 → β)
    (x : (⟨2, ![N, 256]⟩ : Shape).Idx → α) (idx : IVec ⟨2, ![R, 1]⟩ w) :
    Host.gather (rowsDims N R wf) (fun i : (⟨2, ![N, 256]⟩ : Shape).Idx => f (fun k => x (ix2 (i 0) k)) (i 1)) idx
      = fun y : (⟨2, ![R, 256]⟩ : Shape).Idx => f (fun k => Host.gather (rowsDims N R wf) x idx (ix2 (y 0) k)) (y 1) := by
  funext y
  rw [gather_rows_apply hN]
  refine congrArg (fun g => f g (y 1)) (funext fun k => ?_)
  rw [gather_rows_apply hN]
  rfl

end Cert.GatherRows

end
-- ==== Proof.Bridge.lean ====
/-
  The two programs compute one function.

  The kernel's new states are the blend of the gathered node rows with the rows, gathered at the wrapped value
  indices, of the table of projected updates of ALL context rows; the reference's are the blend of the same
  gathered node rows with the projected updates of the context rows gathered at the same indices. A gather of
  rows picks, for result row `r`, a row of its operand that depends on `r` and the indices alone, and the
  projected update of a row depends on that row alone: the two agree, row by row. Both programs then scatter
  their new states into the same node encodings at the same wrapped key indices — one function of equal
  arguments.
-/
import proofs.«133757_j2705829396959_2_alg».proof.Proof.KernelValue
import proofs.«133757_j2705829396959_2_alg».proof.Proof.RefValue
import proofs.«133757_j2705829396959_2_alg».proof.Proof.GatherRows
import Idealize.ShloMosaic.Lib.ValueLayout

set_option maxRecDepth 16384

noncomputable section

namespace Cert.Bridge

open Idealize.ShloMosaic Idealize.ShloMosaic.TcCoe Idealize.ShloMosaic.ValueIdx Idealize.SL.Sem
open Cert.GatedUpdate Cert.GatherRows

/-- A scatter of equal updates into equal operands at equal indices, by equal dimension numbers, is one array:
    congruence. -/
theorem scatter_congr {s si u : Shape} {α : Type} {w : Nat} {d d' : ScatterDims s si u} (g : α → α → α)
    {x x' : s.Idx → α} {i i' : IVec si w} {v v' : u.Idx → α} (hd : d = d') (hx : x = x') (hi : i = i') (hv : v = v') :
    Host.scatter d g x i v = Host.scatter d' g x' i' v' := by
  subst hd hx hi hv; rfl

/-! ## The two programs' dimension numbers are the same records -/

theorem gatherNodes_eq : Cert.KernelIdeal.gather_S500000x256_S400000x1_S400000x256_1_0_n_n_0_1_1256
    = Cert.ReferenceIdeal.gather_S500000x256_S400000x1_S400000x256_1_0_n_n_0_1_1256 := rfl
theorem gatherCtx_eq : Cert.KernelIdeal.gather_S100000x256_S400000x1_S400000x256_1_0_n_n_0_1_1256
    = Cert.ReferenceIdeal.gather_S100000x256_S400000x1_S400000x256_1_0_n_n_0_1_1256 := rfl
theorem gatherCtx_rows : Cert.ReferenceIdeal.gather_S100000x256_S400000x1_S400000x256_1_0_n_n_0_1_1256
    = rowsDims 100000 400000 Cert.ReferenceIdeal.gather_S100000x256_S400000x1_S400000x256_1_0_n_n_0_1_1256.wf := rfl
theorem scatter_eq : Cert.KernelIdeal.scatter_S500000x256_S400000x1_S400000x256_1_0_0_1
    = Cert.ReferenceIdeal.scatter_S500000x256_S400000x1_S400000x256_1_0_0_1 := rfl

section
variable (m : (ℓ : Loc Cert.KernelIdeal.nD Cert.KernelIdeal.τ Cert.KernelIdeal.sig) → Buf (Elt Ideal) ℓ) (c : Dev Cert.KernelIdeal.nD)

/-- The wrapped key indices are the reference's. -/
theorem wrapKey_eq : Cert.KernelIdeal.Result.wrap 500000#32 (m ((c.tc : Thread Cert.KernelIdeal.nD Cert.KernelIdeal.τ).loc Cert.KernelIdeal.main_arg2)) = Cert.ReferenceIdeal.Read.val_main_v43 (F := Ideal) (m ((c.tc : Thread Cert.KernelIdeal.nD Cert.KernelIdeal.τ).loc Cert.KernelIdeal.main_arg2)) := rfl
theorem wrapKey_eq' : Cert.KernelIdeal.Result.wrap 500000#32 (m ((c.tc : Thread Cert.KernelIdeal.nD Cert.KernelIdeal.τ).loc Cert.KernelIdeal.main_arg2)) = Cert.ReferenceIdeal.Read.val_main_v5 (F := Ideal) (m ((c.tc : Thread Cert.KernelIdeal.nD Cert.KernelIdeal.τ).loc Cert.KernelIdeal.main_arg2)) := rfl
theorem wrapVal_eq : Cert.KernelIdeal.Result.wrap 100000#32 (m ((c.tc : Thread Cert.KernelIdeal.nD Cert.KernelIdeal.τ).loc Cert.KernelIdeal.main_arg3)) = Cert.ReferenceIdeal.Read.val_main_v12 (F := Ideal) (m ((c.tc : Thread Cert.KernelIdeal.nD Cert.KernelIdeal.τ).loc Cert.KernelIdeal.main_arg3)) := rfl

/-- The gathered node rows are the reference's. -/
theorem nodeRows_eq : Cert.KernelIdeal.Result.nodeRows m c = Cert.ReferenceIdeal.Read.val_main_v6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) := by
  unfold Cert.ReferenceIdeal.Read.val_main_v6
  rw [← wrapKey_eq' m c, ← gatherNodes_eq]

/-- The update matrix in the matrix unit's format is the update matrix: a change of float format is the identity here. -/
theorem updMat_eq : Cert.KernelIdeal.Result.updMat m c = ((m ((c.tc : Thread Cert.KernelIdeal.nD Cert.KernelIdeal.τ).loc Cert.KernelIdeal.main_arg4)) : Cert.KernelIdeal.S256x256.Idx → EReal) := rfl
/-- The bias with a unit axis, read along the axis, is the bias. -/
theorem updBias_eq : Cert.KernelIdeal.Result.updBias m c = fun q => ((m ((c.tc : Thread Cert.KernelIdeal.nD Cert.KernelIdeal.τ).loc Cert.KernelIdeal.main_arg5)) : Cert.KernelIdeal.S256.Idx → EReal) (ix1 q) :=
  funext fun q => shapeCast_a_1a_apply _ _ (0 : Fin 1) q
theorem gateBias_eq : Cert.KernelIdeal.Result.gateBias m c = fun q => ((m ((c.tc : Thread Cert.KernelIdeal.nD Cert.KernelIdeal.τ).loc Cert.KernelIdeal.main_arg7)) : Cert.KernelIdeal.S256.Idx → EReal) (ix1 q) :=
  funext fun q => shapeCast_a_1a_apply _ _ (0 : Fin 1) q
theorem gateMat1_eq : Cert.KernelIdeal.Result.gateMat1 m c = Cert.ReferenceIdeal.Read.val_main_v19 (F := Ideal) (m ((c.tc : Thread Cert.KernelIdeal.nD Cert.KernelIdeal.τ).loc Cert.KernelIdeal.main_arg6)) := rfl
theorem gateMat2_eq : Cert.KernelIdeal.Result.gateMat2 m c = Cert.ReferenceIdeal.Read.val_main_v21 (F := Ideal) (m ((c.tc : Thread Cert.KernelIdeal.nD Cert.KernelIdeal.τ).loc Cert.KernelIdeal.main_arg6)) := rfl

/-- THE STEP: rows of the table of projected updates, gathered, are the projected updates of the gathered rows. -/
theorem updRows_eq : Cert.KernelIdeal.Result.updRows m c
    = updTable (Cert.ReferenceIdeal.Read.val_main_v13 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg3)))
        ((m ((c.tc : Thread Cert.KernelIdeal.nD Cert.KernelIdeal.τ).loc Cert.KernelIdeal.main_arg4)) : Cert.KernelIdeal.S256x256.Idx → EReal) (fun q => ((m ((c.tc : Thread Cert.KernelIdeal.nD Cert.KernelIdeal.τ).loc Cert.KernelIdeal.main_arg5)) : Cert.KernelIdeal.S256.Idx → EReal) (ix1 q)) := by
  unfold Cert.ReferenceIdeal.Read.val_main_v13
  rw [← wrapVal_eq m c, ← gatherCtx_eq]
  show Host.gather Cert.KernelIdeal.gather_S100000x256_S400000x1_S400000x256_1_0_n_n_0_1_1256
      (updTable ((m ((c.tc : Thread Cert.KernelIdeal.nD Cert.KernelIdeal.τ).loc Cert.KernelIdeal.main_arg1)) : Cert.KernelIdeal.S100000x256.Idx → EReal) (Cert.KernelIdeal.Result.updMat m c) (Cert.KernelIdeal.Result.updBias m c))
      (Cert.KernelIdeal.Result.wrap 100000#32 (m ((c.tc : Thread Cert.KernelIdeal.nD Cert.KernelIdeal.τ).loc Cert.KernelIdeal.main_arg3))) = _
  rw [updMat_eq, updBias_eq, gatherCtx_eq, gatherCtx_rows]
  exact gather_rows_map (by decide : 0 < 100000) _
    (fun x q => updRow x ((m ((c.tc : Thread Cert.KernelIdeal.nD Cert.KernelIdeal.τ).loc Cert.KernelIdeal.main_arg4)) : Cert.KernelIdeal.S256x256.Idx → EReal) (fun q => ((m ((c.tc : Thread Cert.KernelIdeal.nD Cert.KernelIdeal.τ).loc Cert.KernelIdeal.main_arg5)) : Cert.KernelIdeal.S256.Idx → EReal) (ix1 q)) q)
    ((m ((c.tc : Thread Cert.KernelIdeal.nD Cert.KernelIdeal.τ).loc Cert.KernelIdeal.main_arg1)) : Cert.KernelIdeal.S100000x256.Idx → EReal) (Cert.KernelIdeal.Result.wrap 100000#32 (m ((c.tc : Thread Cert.KernelIdeal.nD Cert.KernelIdeal.τ).loc Cert.KernelIdeal.main_arg3)))

/-- The kernel's new states are the reference's, of the same arguments. -/
theorem newStates_eq : Cert.KernelIdeal.Result.newStates m c = Cert.ReferenceIdeal.Read.val_main_v37 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  rw [Cert.ReferenceIdeal.RefValue.states_eq]
  unfold Cert.KernelIdeal.Result.newStates
  rw [nodeRows_eq, updRows_eq, gateMat1_eq, gateMat2_eq, gateBias_eq]

/-- THE KERNEL'S RESULT is the reference's function of the kernel's arguments. -/
theorem result_eq (ρ : Dev Cert.KernelIdeal.nD → PrngReg) :
    Cert.KernelIdeal.Gen.W5 m ρ c (Proc.devRef .tc Cert.KernelIdeal.main_v0) = Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) := by
  refine (Cert.KernelIdeal.Result.result_eq m ρ c).trans ?_
  unfold Cert.ReferenceIdeal.Read.val_main_v44
  exact scatter_congr (fun _ b => b) scatter_eq rfl (wrapKey_eq m c) (newStates_eq m c)

end

end Cert.Bridge

end
-- ==== Proof.lean ====
/-
  A gated state update over 400000 mapped rows, against its jnp reference, on the extended reals.

  Row `r` of the mapping pairs node row `key r` of the 500000 node encodings with context row `val r` of the
  100000 context encodings. The new node row is `z · p + (1 − z) · u` with `p` the node row,
  `u = tanh (x · W_u + b_u)` the projected update of the context row `x`, and
  `z = logistic (p · W_1 + u · W_2 + b_g)` the gate, `W_1`, `W_2` the two halves of the gate matrix; the new rows
  are scattered back into the node encodings at the key indices.

  The kernel runs two regions: a table of the projected updates of ALL context rows, in 50 blocks of 2000 rows,
  then — after gathering node rows and table rows on the host — the blend, in 200 blocks of 2000 rows. The
  reference gathers the context rows first and projects the gathered rows. The projected update of a row depends
  on that row alone and a gather of rows picks its rows by the indices alone, so the two orders agree; every other
  operation is the same on both sides (the kernel's sigmoid is the logistic function the reference spells out,
  its changes of float format the identity, its matrix products into a zero block the plain sums), and the
  final scatter is one function of equal arguments. No law used needs the inputs finite.
-/
import proofs.«133757_j2705829396959_2_alg».proof.Defs
import proofs.«133757_j2705829396959_2_alg».proof.Proof.Gen.Kernel
import proofs.«133757_j2705829396959_2_alg».proof.Proof.Gen.Kernel.Skeleton
import proofs.«133757_j2705829396959_2_alg».proof.Proof.Gen.Kernel.Launch
import proofs.«133757_j2705829396959_2_alg».proof.Proof.Gen.Kernel.Points
import proofs.«133757_j2705829396959_2_alg».proof.Proof.Gen.Kernel.Frame
import proofs.«133757_j2705829396959_2_alg».proof.Proof.Gen.KernelIdeal
import proofs.«133757_j2705829396959_2_alg».proof.Proof.Gen.KernelIdeal.Skeleton
import proofs.«133757_j2705829396959_2_alg».proof.Proof.Gen.KernelIdeal.Launch
import proofs.«133757_j2705829396959_2_alg».proof.Proof.Gen.KernelIdeal.Points
import proofs.«133757_j2705829396959_2_alg».proof.Proof.Gen.KernelIdeal.Frame
import proofs.«133757_j2705829396959_2_alg».proof.Proof.Gen.ReferenceIdeal
import proofs.«133757_j2705829396959_2_alg».proof.Proof.Gen.ReferenceIdeal.Run
import proofs.«133757_j2705829396959_2_alg».proof.Proof.Gen.ReferenceIdeal.Read
import proofs.«133757_j2705829396959_2_alg».proof.Proof.Gen.Pre_finite_inputs
import proofs.«133757_j2705829396959_2_alg».proof.Proof.KernelRun
import proofs.«133757_j2705829396959_2_alg».proof.Proof.Bridge
import Idealize.ShloMosaic.Adequacy
import Idealize.ShloMosaic.Init

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the kernel's own text read on the extended reals. -/
theorem preserves : Cert.preserves_Kernel_KernelIdeal := trivial

/-- From memories agreeing on the arguments both programs end with the reference's function of the kernel's
    arguments in their result buffers. -/
theorem algebraic : Cert.algebraic_KernelIdeal_ReferenceIdeal := by
  intro m ρ m' ρ' _ hagree
  refine ⟨fun c => Cert.ReferenceIdeal.Read.val_main_v44 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun _ h c => ⟨(h c).1.trans (Cert.Bridge.result_eq m c ρ), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7⟩ := hagree c
    rw [Cert.ReferenceIdeal.Read.val_main_v44_eq, e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
